-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x365 : Shape := ⟨2, ![65536, 365]⟩
abbrev S365x512 : Shape := ⟨2, ![365, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S6x32 : Shape := ⟨2, ![6, 32]⟩
abbrev S32 : Shape := ⟨1, ![32]⟩
abbrev S160x64 : Shape := ⟨2, ![160, 64]⟩
abbrev S64 : Shape := ⟨1, ![64]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S65536x365 : S_.BroadcastsInDim S65536x365 (![] : Fin 0 → Fin S65536x365.rank)
  reducesTo_S65536x365_S_d0_1 : S65536x365.ReducesTo [0, 1] S_
  h_S_ : 0 < S_.numel
  bcast_S_S365x512 : S_.BroadcastsInDim S365x512 (![] : Fin 0 → Fin S365x512.rank)
  reducesTo_S365x512_S_d0_1 : S365x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S64x32 .f32) (main_arg12 : FVec F S32 .f32) (main_arg13 : FVec F S32x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_v63 main_v67

def fn_part2 {F : FTy → Type} [FloatOps F] (main_arg7 : FVec F S6x32 .f32) (main_arg8 : FVec F S32 .f32) (main_arg9 : FVec F S160x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S6x32 .f32 := Host.absf main_arg7
  let main_cst_12 : FVec F S_ .f32 := constant S_ .f32 0x7F800000#32
  let main_v35 : FVec F S6x32 .f32 := broadcastInDim S6x32 ![] bcast_S_S6x32 main_cst_12
  let main_v36 : IVec S6x32 1 := cmpf .olt main_v34 main_v35
  let main_c_13 : IVec S_ 1 := constantI S_ 1 1#1
  let main_v37 : IVec S_ 1 := (fun x v => Host.reduce IntOp.andi x v reducesTo_S6x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S160x64 .f32 := Host.absf main_arg9
  let main_cst_16 : FVec F S_ .f32 := constant S_ .f32 0x7F800000#32
  let main_v45 : FVec F S160x64 .f32 := broadcastInDim S160x64 ![] bcast_S_S160x64 main_cst_16
  let main_v46 : IVec S160x64 1 := cmpf .olt main_v44 main_v45
  let main_c_17 : IVec S_ 1 := constantI S_ 1 1#1
  let main_v47 : IVec S_ 1 := (fun x v => Host.reduce IntOp.andi x v reducesTo_S160x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S256 .f32) (main_arg5 : FVec F S256x128 .f32) (main_arg6 : FVec F S128 .f32) (main_arg7 : FVec F S6x32 .f32) (main_arg8 : FVec F S32 .f32) (main_arg9 : FVec F S160x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x365 .f32) (main_arg1 : FVec F S365x512 .f32) (main_arg2 : FVec F S512 .f32) (main_arg3 : FVec F S512x256 .f32) (main_arg4 : FVec F S256 .f32) (main_arg5 : FVec F S256x128 .f32) (main_arg6 : FVec F S128 .f32) (main_arg7 : FVec F S6x32 .f32) (main_arg8 : FVec F S32 .f32) (main_arg9 : FVec F S160x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S65536x365 .f32 := Host.absf main_arg0
  let main_cst : FVec F S_ .f32 := constant S_ .f32 0x7F800000#32
  let main_v1 : FVec F S65536x365 .f32 := broadcastInDim S65536x365 ![] bcast_S_S65536x365 main_cst
  let main_v2 : IVec S65536x365 1 := cmpf .olt main_v0 main_v1
  let main_c : IVec S_ 1 := constantI S_ 1 1#1
  let main_v3 : IVec S_ 1 := (fun x v => Host.reduce IntOp.andi x v reducesTo_S65536x365_S_d0_1 h_S_) main_v2 main_c
  let main_v4 : FVec F S365x512 .f32 := Host.absf main_arg1
  let main_cst_0 : FVec F S_ .f32 := constant S_ .f32 0x7F800000#32
  let main_v5 : FVec F S365x512 .f32 := broadcastInDim S365x512 ![] bcast_S_S365x512 main_cst_0
  let main_v6 : IVec S365x512 1 := cmpf .olt main_v4 main_v5
  let main_c_1 : IVec S_ 1 := constantI S_ 1 1#1
  let main_v7 : IVec S_ 1 := (fun x v => Host.reduce IntOp.andi x v reducesTo_S365x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x365 : Shape := ⟨2, ![65536, 365]⟩
abbrev S365x512 : Shape := ⟨2, ![365, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S6x32 : Shape := ⟨2, ![6, 32]⟩
abbrev S32 : Shape := ⟨1, ![32]⟩
abbrev S160x64 : Shape := ⟨2, ![160, 64]⟩
abbrev S64 : Shape := ⟨1, ![64]⟩
abbrev S64x32 : Shape := ⟨2, ![64, 32]⟩
abbrev S32x1 : Shape := ⟨2, ![32, 1]⟩
abbrev S1 : Shape := ⟨1, ![1]⟩
abbrev S1x512 : Shape := ⟨2, ![1, 512]⟩
abbrev S1x256 : Shape := ⟨2, ![1, 256]⟩
abbrev S1x128 : Shape := ⟨2, ![1, 128]⟩
abbrev S1x32 : Shape := ⟨2, ![1, 32]⟩
abbrev S1x64 : Shape := ⟨2, ![1, 64]⟩
abbrev S1x1 : Shape := ⟨2, ![1, 1]⟩
abbrev S65536 : Shape := ⟨1, ![65536]⟩
abbrev S1024x365 : Shape := ⟨2, ![1024, 365]⟩
abbrev S1024 : Shape := ⟨1, ![1024]⟩
abbrev S1024x512 : Shape := ⟨2, ![1024, 512]⟩
abbrev S1024x256 : Shape := ⟨2, ![1024, 256]⟩
abbrev S1024x128 : Shape := ⟨2, ![1024, 128]⟩
abbrev S1024x1 : Shape := ⟨2, ![1024, 1]⟩
abbrev S1024x32 : Shape := ⟨2, ![1024, 32]⟩
abbrev S1024x160 : Shape := ⟨2, ![1024, 160]⟩
abbrev S1024x64 : Shape := ⟨2, ![1024, 64]⟩

abbrev nBuf : Space → Nat
  | .hbm => 29
  | .vmem => 18
  | .smem => 0
  | _ => 0

abbrev bufTy : (tb : Table) → Fin (tcTables nBuf tb) → BufTy
  | .hbm, ⟨0, _⟩ => ⟨S65536x365, .f32⟩
  | .hbm, ⟨1, _⟩ => ⟨S365x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S6x32, .f32⟩
  | .hbm, ⟨8, _⟩ => ⟨S32, .f32⟩
  | .hbm, ⟨9, _⟩ => ⟨S160x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S365x512, .bf16⟩
  | .hbm, ⟨16, _⟩ => ⟨S512x256, .bf16⟩
  | .hbm, ⟨17, _⟩ => ⟨S256x128, .bf16⟩
  | .hbm, ⟨18, _⟩ => ⟨S160x64, .bf16⟩
  | .hbm, ⟨19, _⟩ => ⟨S64x32, .bf16⟩
  | .hbm, ⟨20, _⟩ => ⟨S1x512, .f32⟩
  | .hbm, ⟨21, _⟩ => ⟨S1x256, .f32⟩
  | .hbm, ⟨22, _⟩ => ⟨S1x128, .f32⟩
  | .hbm, ⟨23, _⟩ => ⟨S1x32, .f32⟩
  | .hbm, ⟨24, _⟩ => ⟨S1x64, .f32⟩
  | .hbm, ⟨25, _⟩ => ⟨S1x32, .f32⟩
  | .hbm, ⟨26, _⟩ => ⟨S1x32, .f32⟩
  | .hbm, ⟨27, _⟩ => ⟨S1x1, .f32⟩
  | .hbm, ⟨28, _⟩ => ⟨S65536, .f32⟩
  | .local _ .vmem, ⟨0, _⟩ => ⟨S1024x365, .f32⟩
  | .local _ .vmem, ⟨1, _⟩ => ⟨S1024x365, .f32⟩
  | .local _ .vmem, ⟨2, _⟩ => ⟨S365x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S6x32, .f32⟩
  | .local _ .vmem, ⟨9, _⟩ => ⟨S1x32, .f32⟩
  | .local _ .vmem, ⟨10, _⟩ => ⟨S160x64, .bf16⟩
  | .local _ .vmem, ⟨11, _⟩ => ⟨S1x64, .f32⟩
  | .local _ .vmem, ⟨12, _⟩ => ⟨S64x32, .bf16⟩
  | .local _ .vmem, ⟨13, _⟩ => ⟨S1x32, .f32⟩
  | .local _ .vmem, ⟨14, _⟩ => ⟨S1x32, .f32⟩
  | .local _ .vmem, ⟨15, _⟩ => ⟨S1x1, .f32⟩
  | .local _ .vmem, ⟨16, _⟩ => ⟨S1024, .f32⟩
  | .local _ .vmem, ⟨17, _⟩ => ⟨S1024, .f32⟩
  | _, _ => ⟨S65536x365, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x365 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S365x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S160x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  shapeCasts_S512_S1x512 : S512.ShapeCasts S1x512
  shapeCasts_S256_S1x256 : S256.ShapeCasts S1x256
  shapeCasts_S128_S1x128 : S128.ShapeCasts S1x128
  shapeCasts_S32_S1x32 : S32.ShapeCasts S1x32
  shapeCasts_S64_S1x64 : S64.ShapeCasts S1x64
  shapeCasts_S32x1_S1x32 : S32x1.ShapeCasts S1x32
  shapeCasts_S1_S1x1 : S1.ShapeCasts S1x1
  inb_S1024x365_S1024x365_0_0 : ∀ a, (![0, 0] : Fin 2 → Nat) a + S1024x365.size a ≤ S1024x365.size a
  h_S1024x365 : 0 < S1024x365.numel
  inb_S365x512_S365x512_0_0 : ∀ a, (![0, 0] : Fin 2 → Nat) a + S365x512.size a ≤ S365x512.size a
  h_S365x512 : 0 < S365x512.numel
  shapeCasts_S365x512_S365x512 : S365x512.ShapeCasts S365x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x365_S1024 : S1024x365.Reduces [1] S1024
  shapeCasts_S1024_S1024x1 : S1024.ShapeCasts S1024x1
  broadcasts_S1024x1_S1024x365 : S1024x1.Broadcasts S1024x365
  inb_S6x32_S6x32_0_0 : ∀ a, (![0, 0] : Fin 2 → Nat) a + S6x32.size a ≤ S6x32.size a
  h_S6x32 : 0 < S6x32.numel
  slices_S6x32_o0_0_S1x32 : S6x32.Slices ![0, 0] S1x32
  broadcasts_S1024x1_S1024x32 : S1024x1.Broadcasts S1024x32
  broadcasts_S1x32_S1024x32 : S1x32.Broadcasts S1024x32
  slices_S6x32_o1_0_S1x32 : S6x32.Slices ![1, 0] S1x32
  slices_S6x32_o2_0_S1x32 : S6x32.Slices ![2, 0] S1x32
  slices_S6x32_o3_0_S1x32 : S6x32.Slices ![3, 0] S1x32
  slices_S6x32_o4_0_S1x32 : S6x32.Slices ![4, 0] S1x32
  slices_S6x32_o5_0_S1x32 : S6x32.Slices ![5, 0] S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  concatenates_S1024x128_S1024x32_S1024x160_d1 : Shape.Concatenates [S1024x128, S1024x32] S1024x160 1
  inb_S160x64_S160x64_0_0 : ∀ a, (![0, 0] : Fin 2 → Nat) a + S160x64.size a ≤ S160x64.size a
  h_S160x64 : 0 < S160x64.numel
  shapeCasts_S160x64_S160x64 : S160x64.ShapeCasts S160x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  reduces_S1024x32_S1024 : S1024x32.Reduces [1] S1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S1024 : S1024x1.ShapeCasts S1024
  inb_S1024_S1024_0 : ∀ a, (![0] : Fin 1 → Nat) a + S1024.size a ≤ S1024.size a
  h_S1024 : 0 < S1024.numel
  dot_S1024x365_S365x512_S1024x512_1_0_0_1_n_n_wf : DotDims.WF S1024x365 S365x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x160_S160x64_S1024x64_1_0_0_1_n_n_wf : DotDims.WF S1024x160 S160x64 S1024x64 [1] [0] [0] [1] [] []
  dot_S1024x64_S64x32_S1024x32_1_0_0_1_n_n_wf : DotDims.WF S1024x64 S64x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x365.size a ≤ S65536x365.size a
  hwx0_0 : ∀ i : grid0.Coords, EltTy.bits .f32 = 32 ∨ (Rect.block (s := S65536x365) S1024x365.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S365x512.size a ≤ S365x512.size a
  hwx0_1 : ∀ i : grid0.Coords, EltTy.bits .bf16 = 32 ∨ (Rect.block (s := S365x512) S365x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x32.size a ≤ S6x32.size a
  hwx0_7 : ∀ i : grid0.Coords, EltTy.bits .f32 = 32 ∨ (Rect.block (s := S6x32) S6x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S160x64.size a ≤ S160x64.size a
  hwx0_9 : ∀ i : grid0.Coords, EltTy.bits .bf16 = 32 ∨ (Rect.block (s := S160x64) S160x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .bf16 = 32 ∨ (Rect.block (s := S64x32) S64x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024.size a ≤ S65536.size a
  hwx0_15 : ∀ i : grid0.Coords, EltTy.bits .f32 = 32 ∨ (Rect.block (s := S65536) S1024.size (cc0_transform_15 i) (hinb0_15 i)).WholeWords (EltTy.packing .f32)

variable [Facts₀]

def dot_S1024x365_S365x512_S1024x512_1_0_0_1_n_n : DotDims S1024x365 S365x512 S1024x512 where
  lhsContracting := [1]
  rhsContracting := [0]
  lhsNonContracting := [0]
  rhsNonContracting := [1]
  lhsBatch := []
  rhsBatch := []
  wf := dot_S1024x365_S365x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x160_S160x64_S1024x64_1_0_0_1_n_n : DotDims S1024x160 S160x64 S1024x64 where
  lhsContracting := [1]
  rhsContracting := [0]
  lhsNonContracting := [0]
  rhsNonContracting := [1]
  lhsBatch := []
  rhsBatch := []
  wf := dot_S1024x160_S160x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf

abbrev win0_0 : Pipeline.Window sig grid0 :=
  Pipeline.Window.ofSpec (Memref.whole main_arg0) S1024x365.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S365x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S160x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x365 : Shape := ⟨2, ![65536, 365]⟩
abbrev S365x512 : Shape := ⟨2, ![365, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S6x32 : Shape := ⟨2, ![6, 32]⟩
abbrev S32 : Shape := ⟨1, ![32]⟩
abbrev S160x64 : Shape := ⟨2, ![160, 64]⟩
abbrev S64 : Shape := ⟨1, ![64]⟩
abbrev S64x32 : Shape := ⟨2, ![64, 32]⟩
abbrev S32x1 : Shape := ⟨2, ![32, 1]⟩
abbrev S1 : Shape := ⟨1, ![1]⟩
abbrev S65536x512 : Shape := ⟨2, ![65536, 512]⟩
abbrev S1x512 : Shape := ⟨2, ![1, 512]⟩
abbrev S_ : Shape := ⟨0, ![]⟩
abbrev S65536x256 : Shape := ⟨2, ![65536, 256]⟩
abbrev S1x256 : Shape := ⟨2, ![1, 256]⟩
abbrev S65536x128 : Shape := ⟨2, ![65536, 128]⟩
abbrev S1x128 : Shape := ⟨2, ![1, 128]⟩
abbrev S65536 : Shape := ⟨1, ![65536]⟩
abbrev S65536x1 : Shape := ⟨2, ![65536, 1]⟩
abbrev S65536x6 : Shape := ⟨2, ![65536, 6]⟩
abbrev S65536x32 : Shape := ⟨2, ![65536, 32]⟩
abbrev S1x32 : Shape := ⟨2, ![1, 32]⟩
abbrev S65536x160 : Shape := ⟨2, ![65536, 160]⟩
abbrev S65536x64 : Shape := ⟨2, ![65536, 64]⟩
abbrev S1x64 : Shape := ⟨2, ![1, 64]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S65536x365, .f32⟩
  | .hbm, ⟨1, _⟩ => ⟨S365x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S6x32, .f32⟩
  | .hbm, ⟨8, _⟩ => ⟨S32, .f32⟩
  | .hbm, ⟨9, _⟩ => ⟨S160x64, .f32⟩
  | .hbm, ⟨10, _⟩ => ⟨S64, .f32⟩
  | .hbm, ⟨11, _⟩ => ⟨S64x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S65536x256, .f32⟩
  | .hbm, ⟨23, _⟩ => ⟨S1x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S65536x128, .f32⟩
  | .hbm, ⟨30, _⟩ => ⟨S1x128, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x365, .f32⟩
  | .hbm, ⟨43, _⟩ => ⟨S65536x365, .f32⟩
  | .hbm, ⟨44, _⟩ => ⟨S65536x365, .f32⟩
  | .hbm, ⟨45, _⟩ => ⟨S_, .f32⟩
  | .hbm, ⟨46, _⟩ => ⟨S65536, .f32⟩
  | .hbm, ⟨47, _⟩ => ⟨S_, .f32⟩
  | .hbm, ⟨48, _⟩ => ⟨S65536, .f32⟩
  | .hbm, ⟨49, _⟩ => ⟨S65536, .f32⟩
  | .hbm, ⟨50, _⟩ => ⟨S65536, .f32⟩
  | .hbm, ⟨51, _⟩ => ⟨S65536x365, .f32⟩
  | .hbm, ⟨52, _⟩ => ⟨S65536x365, .f32⟩
  | .hbm, ⟨53, _⟩ => ⟨S_, .f32⟩
  | .hbm, ⟨54, _⟩ => ⟨S65536, .f32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S65536x365, .f32⟩
  | .hbm, ⟨59, _⟩ => ⟨S65536x365, .f32⟩
  | .hbm, ⟨60, _⟩ => ⟨S_, .f32⟩
  | .hbm, ⟨61, _⟩ => ⟨S65536, .f32⟩
  | .hbm, ⟨62, _⟩ => ⟨S_, .f32⟩
  | .hbm, ⟨63, _⟩ => ⟨S65536, .f32⟩
  | .hbm, ⟨64, _⟩ => ⟨S65536, .f32⟩
  | .hbm, ⟨65, _⟩ => ⟨S65536, .f32⟩
  | .hbm, ⟨66, _⟩ => ⟨S65536, .f32⟩
  | .hbm, ⟨67, _⟩ => ⟨S_, .f32⟩
  | .hbm, ⟨68, _⟩ => ⟨S65536, .f32⟩
  | .hbm, ⟨69, _⟩ => ⟨S65536, .f32⟩
  | .hbm, ⟨70, _⟩ => ⟨S65536, .f32⟩
  | .hbm, ⟨71, _⟩ => ⟨S65536, .f32⟩
  | .hbm, ⟨72, _⟩ => ⟨S65536, .f32⟩
  | .hbm, ⟨73, _⟩ => ⟨S_, .f32⟩
  | .hbm, ⟨74, _⟩ => ⟨S65536, .f32⟩
  | .hbm, ⟨75, _⟩ => ⟨S65536, .f32⟩
  | .hbm, ⟨76, _⟩ => ⟨S65536, .f32⟩
  | .hbm, ⟨77, _⟩ => ⟨S65536, .f32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S65536, .f32⟩
  | .hbm, ⟨82, _⟩ => ⟨S65536x1, .f32⟩
  | .hbm, ⟨83, _⟩ => ⟨S65536x1, .f32⟩
  | .hbm, ⟨84, _⟩ => ⟨S65536x1, .f32⟩
  | .hbm, ⟨85, _⟩ => ⟨S65536x1, .f32⟩
  | .hbm, ⟨86, _⟩ => ⟨S65536x1, .f32⟩
  | .hbm, ⟨87, _⟩ => ⟨S65536x1, .f32⟩
  | .hbm, ⟨88, _⟩ => ⟨S65536x6, .f32⟩
  | .hbm, ⟨89, _⟩ => ⟨S65536x32, .f32⟩
  | .hbm, ⟨90, _⟩ => ⟨S1x32, .f32⟩
  | .hbm, ⟨91, _⟩ => ⟨S65536x32, .f32⟩
  | .hbm, ⟨92, _⟩ => ⟨S65536x32, .f32⟩
  | .hbm, ⟨93, _⟩ => ⟨S65536x160, .f32⟩
  | .hbm, ⟨94, _⟩ => ⟨S65536x64, .f32⟩
  | .hbm, ⟨95, _⟩ => ⟨S1x64, .f32⟩
  | .hbm, ⟨96, _⟩ => ⟨S65536x64, .f32⟩
  | .hbm, ⟨97, _⟩ => ⟨S65536x64, .f32⟩
  | .hbm, ⟨98, _⟩ => ⟨S_, .f32⟩
  | .hbm, ⟨99, _⟩ => ⟨S65536x64, .f32⟩
  | .hbm, ⟨100, _⟩ => ⟨S65536x64, .f32⟩
  | .hbm, ⟨101, _⟩ => ⟨S65536x32, .f32⟩
  | .hbm, ⟨102, _⟩ => ⟨S1x32, .f32⟩
  | .hbm, ⟨103, _⟩ => ⟨S65536x32, .f32⟩
  | .hbm, ⟨104, _⟩ => ⟨S65536x32, .f32⟩
  | .hbm, ⟨105, _⟩ => ⟨S_, .f32⟩
  | .hbm, ⟨106, _⟩ => ⟨S65536x32, .f32⟩
  | .hbm, ⟨107, _⟩ => ⟨S65536x32, .f32⟩
  | .hbm, ⟨108, _⟩ => ⟨S65536x1, .f32⟩
  | .hbm, ⟨109, _⟩ => ⟨S1x1, .f32⟩
  | .hbm, ⟨110, _⟩ => ⟨S65536x1, .f32⟩
  | .hbm, ⟨111, _⟩ => ⟨S65536x1, .f32⟩
  | .hbm, ⟨112, _⟩ => ⟨S65536x1, .f32⟩
  | .hbm, ⟨113, _⟩ => ⟨S65536x1, .f32⟩
  | .hbm, ⟨114, _⟩ => ⟨S_, .f32⟩
  | .hbm, ⟨115, _⟩ => ⟨S65536x1, .f32⟩
  | .hbm, ⟨116, _⟩ => ⟨S65536x1, .f32⟩
  | .hbm, ⟨117, _⟩ => ⟨S_, .f32⟩
  | .hbm, ⟨118, _⟩ => ⟨S65536x1, .f32⟩
  | .hbm, ⟨119, _⟩ => ⟨S65536x1, .f32⟩
  | .hbm, ⟨120, _⟩ => ⟨S65536, .f32⟩
  | _, _ => ⟨S65536x365, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call3_cst : Ref sig .tc := ⟨.hbm, 98, rfl⟩
abbrev main_call3_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call4_cst : Ref sig .tc := ⟨.hbm, 105, rfl⟩
abbrev main_call4_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_11 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x365_S65536_d1 : S65536x365.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x365_0_1 : S65536x1.BroadcastsInDim S65536x365 (![0, 1] : Fin 2 → Fin S65536x365.rank)
  bcast_S_S65536 : S_.BroadcastsInDim S65536 (![] : Fin 0 → Fin S65536.rank)
  shapeCasts_S65536x1_S65536 : S65536x1.ShapeCasts S65536
  concatenates_S65536x1_S65536x1_S65536x1_S65536x1_S65536x1_S65536x1_S65536x6_d1 : Shape.Concatenates [S65536x1, S65536x1, S65536x1, S65536x1, S65536x1, S65536x1] S65536x6 1
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  concatenates_S65536x128_S65536x32_S65536x160_d1 : Shape.Concatenates [S65536x128, S65536x32] S65536x160 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S_S65536x32 : S_.BroadcastsInDim S65536x32 (![] : Fin 0 → Fin S65536x32.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x365_S365x512_S65536x512_1_0_0_1_n_n_wf : DotDims.WF S65536x365 S365x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x6_S6x32_S65536x32_1_0_0_1_n_n_wf : DotDims.WF S65536x6 S6x32 S65536x32 [1] [0] [0] [1] [] []
  dot_S65536x160_S160x64_S65536x64_1_0_0_1_n_n_wf : DotDims.WF S65536x160 S160x64 S65536x64 [1] [0] [0] [1] [] []
  dot_S65536x64_S64x32_S65536x32_1_0_0_1_n_n_wf : DotDims.WF S65536x64 S64x32 S65536x32 [1] [0] [0] [1] [] []
  dot_S65536x32_S32x1_S65536x1_1_0_0_1_n_n_wf : DotDims.WF S65536x32 S32x1 S65536x1 [1] [0] [0] [1] [] []

variable [Facts₀]

def dot_S65536x365_S365x512_S65536x512_1_0_0_1_n_n : DotDims S65536x365 S365x512 S65536x512 where
  lhsContracting := [1]
  rhsContracting := [0]
  lhsNonContracting := [0]
  rhsNonContracting := [1]
  lhsBatch := []
  rhsBatch := []
  wf := dot_S65536x365_S365x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x6_S6x32_S65536x32_1_0_0_1_n_n : DotDims S65536x6 S6x32 S65536x32 where
  lhsContracting := [1]
  rhsContracting := [0]
  lhsNonContracting := [0]
  rhsNonContracting := [1]
  lhsBatch := []
  rhsBatch := []
  wf := dot_S65536x6_S6x32_S65536x32_1_0_0_1_n_n_wf
def dot_S65536x160_S160x64_S65536x64_1_0_0_1_n_n : DotDims S65536x160 S160x64 S65536x64 where
  lhsContracting := [1]
  rhsContracting := [0]
  lhsNonContracting := [0]
  rhsNonContracting := [1]
  lhsBatch := []
  rhsBatch := []
  wf := dot_S65536x160_S160x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.LibNary6.lean ====
/-
  A host operation with SIX operand buffers, read in a host program's run.

  A straight-line host program's run leaves every buffer at the fold of the operations' results over the launch
  contents, and that fold is computed by rewriting each operation's result at its own buffer. For an operation whose
  operands are a FAMILY of buffers (a concatenation of several arrays) the general rule hands the operation's function
  the family `fun k => F (xs k)`, where the buffer `xs k` is no literal under the binder and no further rule applies to
  it. Nor can the six contents be handed over inside the operation's function: a concatenation takes its pieces as a
  list together with a proof about that very list, and rewriting does not enter an argument that a later argument's
  type depends on. So for a literal family of six buffers the result is restated here as a six-argument application:
  the function that builds the family from six given contents (a selector, read by the operation at the literal
  positions `0 … 5`) applied to the six buffers' contents, which stay ordinary arguments that the rewriting reaches.
  Unfolding the application and reading the selector at the literals are definitional steps, done afterwards.
  The same holds one size down: a concatenation of TWO arrays is an operation with two operand buffers whose function
  takes both into such a list, so the two-operand result is stated as a two-argument application as well.
-/
import Idealize.ShloMosaic.Lib.StableHlo.Run

noncomputable section

namespace Cert.LibNary6

open Idealize.ShloMosaic Idealize.ShloMosaic.StableHlo

/-- The family over `Fin 6` with the six given members (an abbreviation: a comparison of two terms opens it before it
    opens anything it is compared with). -/
abbrev sel6 {α : Fin 6 → Type} (a0 : α 0) (a1 : α 1) (a2 : α 2) (a3 : α 3) (a4 : α 4) (a5 : α 5) : (k : Fin 6) → α k
  | ⟨0, _⟩ => a0
  | ⟨1, _⟩ => a1
  | ⟨2, _⟩ => a2
  | ⟨3, _⟩ => a3
  | ⟨4, _⟩ => a4
  | ⟨5, _⟩ => a5

section
variable {α : Fin 6 → Type} (a0 : α 0) (a1 : α 1) (a2 : α 2) (a3 : α 3) (a4 : α 4) (a5 : α 5)
theorem sel6_0 : sel6 a0 a1 a2 a3 a4 a5 0 = a0 := rfl
theorem sel6_1 : sel6 a0 a1 a2 a3 a4 a5 1 = a1 := rfl
theorem sel6_2 : sel6 a0 a1 a2 a3 a4 a5 2 = a2 := rfl
theorem sel6_3 : sel6 a0 a1 a2 a3 a4 a5 3 = a3 := rfl
theorem sel6_4 : sel6 a0 a1 a2 a3 a4 a5 4 = a4 := rfl
theorem sel6_5 : sel6 a0 a1 a2 a3 a4 a5 5 = a5 := rfl
end

/-- A function of two arguments applied to them: as `app6` below, for an operation with two operand buffers whose function
    is a concatenation of the two. -/
def app2 {A0 A1 B : Type} (g : A0 → A1 → B) (a0 : A0) (a1 : A1) : B := g a0 a1

/-- A function of six arguments applied to them: the arguments stay in sight of a rewriting pass that the function's body
    may hide them from. -/
def app6 {A0 A1 A2 A3 A4 A5 B : Type} (g : A0 → A1 → A2 → A3 → A4 → A5 → B) (a0 : A0) (a1 : A1) (a2 : A2) (a3 : A3)
    (a4 : A4) (a5 : A5) : B := g a0 a1 a2 a3 a4 a5

variable {τ : Topo} {sig : RefSig} {Val : EltTy → Type}
variable {x0 x1 x2 x3 x4 x5 y : Ref sig .tc}

/-- The result of a six-operand operation at its own result buffer: its function of the six operands' contents, each
    read at its own buffer. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = app6 (fun (a0 : x0.ty.Contents Val) (a1 : x1.ty.Contents Val) (a2 : x2.ty.Contents Val) (a3 : x3.ty.Contents Val)
            (a4 : x4.ty.Contents Val) (a5 : x5.ty.Contents Val) =>
          f (sel6 (α := fun k => ((![x0, x1, x2, x3, x4, x5] : Fin 6 → Ref sig .tc) k).ty.Contents Val) a0 a1 a2 a3 a4 a5))
          (F (Proc.devRef .tc x0)) (F (Proc.devRef .tc x1)) (F (Proc.devRef .tc x2))
          (F (Proc.devRef .tc x3)) (F (Proc.devRef .tc x4)) (F (Proc.devRef .tc x5)) := by
  rw [nary_result]; unfold app6; congr 1; funext k; fin_cases k <;> rfl

/-- The same, stated for `simp`: the result buffer is not part of the pattern's key. -/
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = app6 (fun (a0 : x0.ty.Contents Val) (a1 : x1.ty.Contents Val) (a2 : x2.ty.Contents Val) (a3 : x3.ty.Contents Val)
            (a4 : x4.ty.Contents Val) (a5 : x5.ty.Contents Val) =>
          f (sel6 (α := fun k => ((![x0, x1, x2, x3, x4, x5] : Fin 6 → Ref sig .tc) k).ty.Contents Val) a0 a1 a2 a3 a4 a5))
          (F (Proc.devRef .tc x0)) (F (Proc.devRef .tc x1)) (F (Proc.devRef .tc x2))
          (F (Proc.devRef .tc x3)) (F (Proc.devRef .tc x4)) (F (Proc.devRef .tc x5)) :=
  nary6_result f hxs hy F

/-- The result of a two-operand operation at its own result buffer, stated for `simp` as a two-argument application, so
    that the two operands' contents are evaluated before the operation's function takes them in. -/
theorem binary_result2' {a b : Ref sig .tc}
    (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- The fold of a literal operation list at a buffer, in one `simp` pass, for a list with a six-operand operation: the
    library's pass with the six-operand form in place of the general family form; then, definitionally, the
    six-argument application unfolded and the selector read at its literal positions. -/
macro "after_results_simp6" : tactic =>
  `(tactic| (simp (disch := decide) only [after_cons, after_nil,
      nullary_result', unary_result', Cert.LibNary6.binary_result2', ternary_result', quaternary_result', reshape_result', nary4_result',
      Cert.LibNary6.nary6_result', unaryIndexed_result', binaryIndexed_result',
      nullary_result_ne', unary_result_ne', binary_result_ne', ternary_result_ne', quaternary_result_ne', reshape_result_ne',
      nary_result_ne', unaryIndexed_result_ne', binaryIndexed_result_ne']; try dsimp only [Cert.LibNary6.app2, Cert.LibNary6.app6, Cert.LibNary6.sel6_0, Cert.LibNary6.sel6_1, Cert.LibNary6.sel6_2, Cert.LibNary6.sel6_3, Cert.LibNary6.sel6_4, Cert.LibNary6.sel6_5]))

end Cert.LibNary6

end
-- ==== Proof.RowNet.lean ====
/-
  The network on one input row, over the extended reals.

  The kernel and the reference both compute, for every row `x` of the input (365 numbers), one number: three
  dense layers with a positive part after each (365 → 512 → 256 → 128), beside them six statistics of the row — its
  mean, its standard deviation with the unbiased divisor 364, its least and greatest entries, and its third and
  fourth central moments divided by the third and fourth powers of the deviation plus a small constant — projected
  to 32 numbers by a 6 × 32 matrix; the 128 and the 32 numbers joined, two more dense layers with positive part
  (160 → 64 → 32), a last weighted sum to one number, and the logistic function of it.
  Every float constant is kept as the extended real its f32 word denotes (`lit`): the two programs carry the same
  words, so none of them is ever evaluated here.
-/
import Idealize.ShloMosaic.PureOps.Ideal
import Idealize.ShloMosaic.PureOps.Ideal.Laws

noncomputable section

namespace Cert.RowNet

open Idealize.ShloMosaic

/-- The extended real an f32 word denotes. -/
abbrev lit (w : BitVec 32) : EReal := Ideal.ofBits .f32 w

/-- One dense layer followed by the positive part: `max (∑ c, v c · W c j + b j) 0`. -/
def dense {n k : ℕ} (W : Fin n → Fin k → EReal) (b : Fin k → EReal) (v : Fin n → EReal) (j : Fin k) : EReal :=
  max ((∑ c : Fin n, v c * W c j) + b j) (lit 0x00000000#32)

variable {d : ℕ}

/-- The row's mean: its sum divided by 365. -/
def mean (x : Fin d → EReal) : EReal := Ideal.div (∑ k, x k) (lit 0x43B68000#32)

/-- An entry's deviation from the mean. -/
def dev (x : Fin d → EReal) (k : Fin d) : EReal := x k - mean x

/-- The squared deviation. -/
def sq (x : Fin d → EReal) (k : Fin d) : EReal := dev x k * dev x k

/-- The standard deviation with the unbiased divisor: the square root of the squared deviations' sum over 364. -/
def sigma (x : Fin d → EReal) : EReal := Ideal.sqrt (Ideal.div (∑ k, sq x k) (lit 0x43B60000#32))

/-- The third central moment over `σ³ + ε`. -/
def skew (x : Fin d → EReal) : EReal :=
  Ideal.div (Ideal.div (∑ k, sq x k * dev x k) (lit 0x43B68000#32)) (sigma x * sigma x * sigma x + lit 0x322BCC77#32)

/-- The fourth central moment over `σ⁴ + ε`. -/
def kurt (x : Fin d → EReal) : EReal :=
  Ideal.div (Ideal.div (∑ k, sq x k * sq x k) (lit 0x43B68000#32))
    (sigma x * sigma x * (sigma x * sigma x) + lit 0x322BCC77#32)

/-- The least entry, as the fold of `min` from `+∞`. -/
def lo (x : Fin d → EReal) : EReal := (Finset.univ : Finset (Fin d)).fold min (lit 0x7F800000#32) x

/-- The greatest entry, as the fold of `max` from `-∞`. -/
def hi (x : Fin d → EReal) : EReal := (Finset.univ : Finset (Fin d)).fold max (lit 0xFF800000#32) x

/-- The six statistics in the order the projection takes them. -/
def stats (x : Fin d → EReal) (k : Fin 6) : EReal :=
  match k with
  | ⟨0, _⟩ => mean x
  | ⟨1, _⟩ => sigma x
  | ⟨2, _⟩ => lo x
  | ⟨3, _⟩ => hi x
  | ⟨4, _⟩ => skew x
  | ⟨5, _⟩ => kurt x
  | ⟨_ + 6, h⟩ => absurd h (Nat.not_lt.2 (Nat.le_add_left _ _))

/-- The statistics projected to 32 numbers. -/
def proj (Ws : Fin 6 → Fin 32 → EReal) (bs : Fin 32 → EReal) (x : Fin d → EReal) (j : Fin 32) : EReal :=
  (∑ k : Fin 6, stats x k * Ws k j) + bs j

/-- 128 numbers followed by 32. -/
def join (u : Fin 128 → EReal) (v : Fin 32 → EReal) (j : Fin 160) : EReal :=
  if h : j.val < 128 then u ⟨j.val, h⟩ else v ⟨j.val - 128, by have := j.isLt; omega⟩

/-- The last layer: a weighted sum, a bias, the logistic function. -/
def score (w : Fin 32 → EReal) (b : EReal) (v : Fin 32 → EReal) : EReal :=
  Ideal.logistic ((∑ k : Fin 32, v k * w k) + b)

/-- The network's parameters, as functions of coordinates. -/
@[ext] structure Params where
  W1 : Fin 365 → Fin 512 → EReal
  b1 : Fin 512 → EReal
  W2 : Fin 512 → Fin 256 → EReal
  b2 : Fin 256 → EReal
  W3 : Fin 256 → Fin 128 → EReal
  b3 : Fin 128 → EReal
  Ws : Fin 6 → Fin 32 → EReal
  bs : Fin 32 → EReal
  Wc1 : Fin 160 → Fin 64 → EReal
  bc1 : Fin 64 → EReal
  Wc2 : Fin 64 → Fin 32 → EReal
  bc2 : Fin 32 → EReal
  wc3 : Fin 32 → EReal
  bc3 : EReal

/-- The 128 features the three dense layers give a row. -/
def feat (P : Params) (x : Fin 365 → EReal) : Fin 128 → EReal :=
  dense P.W3 P.b3 (dense P.W2 P.b2 (dense P.W1 P.b1 x))

/-- The 32 numbers the second pair of dense layers gives a row. -/
def head (P : Params) (x : Fin 365 → EReal) : Fin 32 → EReal :=
  dense P.Wc2 P.bc2 (dense P.Wc1 P.bc1 (join (feat P x) (proj P.Ws P.bs x)))

/-- The network's value on a row. -/
def out (P : Params) (x : Fin 365 → EReal) : EReal := score P.wc3 P.bc3 (head P x)

/-- A sum started from the f32 word of zero is the sum. -/
theorem zero_word_add (s : EReal) : lit 0x00000000#32 + s = s := by
  rw [show lit 0x00000000#32 = 0 from Ideal.ofBits_zero_f32, zero_add]

/-- The product of three equal factors, grouped either way. -/
theorem cube_comm (s : EReal) : s * (s * s) = s * s * s := (mul_assoc s s s).symm

/-- The logistic function spelled with the f32 word of one: `1 / (1 + e^(-z))`. -/
theorem logistic_eq (z : EReal) (h1 : lit 0x3F800000#32 = 1) :
    Ideal.div (lit 0x3F800000#32) (lit 0x3F800000#32 + Ideal.exp (-z)) = Ideal.logistic z := by
  rw [h1]; rfl

end Cert.RowNet

end
-- ==== Proof.NetArrays.lean ====
/-
  The network's result as ONE function of the fifteen argument arrays.

  The parameters are read off the weight and bias arrays by their coordinates (the last weight matrix is `32 × 1`: its one
  column; the last bias has one entry), and the result array holds, at row `i`, the network's value on row `i` of the
  input array. Both programs' runs end at this function of their arguments.
-/
import proofs.«139536_j75840532512772_2_alg».proof.Proof.RowNet
import Idealize.ShloMosaic.Lib.ValueIdx

noncomputable section

namespace Cert.RowNet

open Idealize.ShloMosaic Idealize.ShloMosaic.ValueIdx

/-- An `a × b` array of extended reals. -/
abbrev Arr2 (a b : ℕ) : Type := (⟨2, ![a, b]⟩ : Shape).Idx → EReal

/-- An array of `a` extended reals. -/
abbrev Arr1 (a : ℕ) : Type := (⟨1, ![a]⟩ : Shape).Idx → EReal

/-- The parameters, read off the arrays. -/
def paramsOf (a1 : Arr2 365 512) (a2 : Arr1 512) (a3 : Arr2 512 256) (a4 : Arr1 256) (a5 : Arr2 256 128) (a6 : Arr1 128)
    (a7 : Arr2 6 32) (a8 : Arr1 32) (a9 : Arr2 160 64) (a10 : Arr1 64) (a11 : Arr2 64 32) (a12 : Arr1 32)
    (a13 : Arr2 32 1) (a14 : Arr1 1) : Params where
  W1 := fun c j => a1 (ix2 c j)
  b1 := fun j => a2 (ix1 j)
  W2 := fun c j => a3 (ix2 c j)
  b2 := fun j => a4 (ix1 j)
  W3 := fun c j => a5 (ix2 c j)
  b3 := fun j => a6 (ix1 j)
  Ws := fun c j => a7 (ix2 c j)
  bs := fun j => a8 (ix1 j)
  Wc1 := fun c j => a9 (ix2 c j)
  bc1 := fun j => a10 (ix1 j)
  Wc2 := fun c j => a11 (ix2 c j)
  bc2 := fun j => a12 (ix1 j)
  wc3 := fun k => a13 (ix2 k (0 : Fin 1))
  bc3 := a14 (ix1 (0 : Fin 1))

/-- The result array: at row `i`, the network's value on row `i` of the input. -/
def netOf (a0 : Arr2 65536 365) (a1 : Arr2 365 512) (a2 : Arr1 512) (a3 : Arr2 512 256) (a4 : Arr1 256)
    (a5 : Arr2 256 128) (a6 : Arr1 128) (a7 : Arr2 6 32) (a8 : Arr1 32) (a9 : Arr2 160 64) (a10 : Arr1 64)
    (a11 : Arr2 64 32) (a12 : Arr1 32) (a13 : Arr2 32 1) (a14 : Arr1 1) : Arr1 65536 :=
  fun i => out (paramsOf a1 a2 a3 a4 a5 a6 a7 a8 a9 a10 a11 a12 a13 a14)
    (fun k => a0 (ix2 (⟨(i 0).val, (i 0).isLt⟩ : Fin 65536) k))

/-- At the index built from a row number the result is the network's value on that row. -/
theorem netOf_apply (a0 : Arr2 65536 365) (a1 : Arr2 365 512) (a2 : Arr1 512) (a3 : Arr2 512 256) (a4 : Arr1 256)
    (a5 : Arr2 256 128) (a6 : Arr1 128) (a7 : Arr2 6 32) (a8 : Arr1 32) (a9 : Arr2 160 64) (a10 : Arr1 64)
    (a11 : Arr2 64 32) (a12 : Arr1 32) (a13 : Arr2 32 1) (a14 : Arr1 1) (r : Fin 65536) :
    netOf a0 a1 a2 a3 a4 a5 a6 a7 a8 a9 a10 a11 a12 a13 a14 (ix1 r)
      = out (paramsOf a1 a2 a3 a4 a5 a6 a7 a8 a9 a10 a11 a12 a13 a14) (fun k => a0 (ix2 r k)) := rfl

end Cert.RowNet

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibRowOps.lean ====
/-
  Row-wise operations of an `[a, b]` array read at coordinates, at the extended reals.

  * The least and the greatest entry of each row — a kernel's lane reduction and the host's reduce alike — are the
    folds of `min` and `max` over the row's entries from the accumulator's value, which is kept as the word it is
    given by (never evaluated).
  * Two arrays with the same rows joined along the column axis read the first array left of the seam and the second
    one right of it.
  * Six `[a, 1]` columns joined along the column axis read, at `(p, j)`, the `j`-th column at `(p, 0)`.
  * A dense layer with positive part as a kernel spells it — a product into a zero accumulator of the input (after a
    change of float format, which is the identity here) and a weight matrix, plus a bias row broadcast over the
    rows, then the maximum with a broadcast zero — reads at `(p, j)` `max (∑ c, A (p, c) · W (c, j) + b (0, j)) 0`.
-/
import proofs.«139536_j75840532512772_2_alg».proof.Proof.LibPlain
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowOps

open Idealize.ShloMosaic Idealize.ShloMosaic.ValueIdx

/-! ## Row minimum and maximum -/

/-- A kernel's minimum over the last axis of an `a × b` array, at row `p`: the fold of `min` over the row's entries
    from the value of the accumulator's word. -/
theorem rowMin_apply {a b : ℕ} (src : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.minimumf.neutral .f32 hφ) (p : Fin a) :
    multiReduction .minimumf [(1 : Fin 2)] ⟨1, ![a]⟩ src acc h hφ hacc (ix1 p)
      = (Finset.univ : Finset (Fin b)).fold min (Ideal.ofBits .f32 acc) (fun k => src (ix2 p k)) := by
  rw [multiReduction_minimumf_eq_fold src acc h hφ hacc (ix1 p), h.fold_filter_drop_single _ _ src (ix1 p)]
  show (Finset.univ : Finset (Fin b)).fold min (Ideal.ofBits .f32 acc) _ = _
  refine congrArg (Finset.fold min _ · Finset.univ) (funext fun k => ?_)
  exact congrArg src (funext fun ax => Fin.ext (by
    match ax with
    | ⟨0, _⟩ => rfl
    | ⟨1, _⟩ => rfl))

/-- A kernel's maximum over the last axis of an `a × b` array, at row `p`: the fold of `max` over the row's entries
    from the value of the accumulator's word. -/
theorem rowMax_apply {a b : ℕ} (src : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun k => src (ix2 p k)) := by
  rw [Ideal.multiReduction_maximumf_single src acc h hφ hacc (ix1 p)]
  show (Finset.univ : Finset (Fin b)).fold max (Ideal.ofBits .f32 acc) _ = _
  refine congrArg (Finset.fold max _ · Finset.univ) (funext fun k => ?_)
  exact congrArg src (funext fun ax => Fin.ext (by
    match ax with
    | ⟨0, _⟩ => rfl
    | ⟨1, _⟩ => rfl))

/-- The host's reduce over the last axis of an `a × b` array by a commutative, associative operation, at row `r`: the
    fold of the operation over the row's entries from the initial value. -/
theorem hostRowFold_apply {a b : ℕ} {u : Shape} (f : EReal → EReal → EReal) [Std.Commutative f] [Std.Associative f]
    (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (r : Fin a) :
    Host.reduce f x init h' hu (ix1 r)
      = (Finset.univ : Finset (Fin b)).fold f (init (Shape.Idx.first hu)) (fun k => x (ix2 r k)) := by
  rw [Host.reduce_eq_fold_single f x init h' h hu (ix1 r)]
  show (Finset.univ : Finset (Fin b)).fold f _ _ = _
  refine congrArg (Finset.fold f _ · Finset.univ) (funext fun k => ?_)
  exact congrArg x (funext fun ax => Fin.ext (by
    match ax with
    | ⟨0, _⟩ => rfl
    | ⟨1, _⟩ => rfl))

/-! ## Two arrays joined along the columns -/

variable {α : Type}

/-- Left of the seam the join reads the first array at the same coordinates. -/
theorem joinCols_left {a b₁ b₂ b : ℕ} (u : (⟨2, ![a, b₁]⟩ : Shape).Idx → α) (v : (⟨2, ![a, b₂]⟩ : Shape).Idx → α)
    (h : Shape.Concatenates [(⟨2, ![a, b₁]⟩ : Shape), ⟨2, ![a, b₂]⟩] ⟨2, ![a, b]⟩ 1) (p : Fin a) (j : Fin b)
    (hj : j.val < b₁) :
    concatenate ⟨2, ![a, b]⟩ 1 [⟨⟨2, ![a, b₁]⟩, u⟩, ⟨⟨2, ![a, b₂]⟩, v⟩] h (ix2 p j) = u (ix2 p ⟨j.val, hj⟩) :=
  concatenate_pair_apply_left (t := ⟨2, ![a, b]⟩) (1 : Fin 2) u v h (ix2 p j) rfl (ix2 p ⟨j.val, hj⟩) fun ax => by
    match ax with
    | ⟨0, _⟩ => rfl
    | ⟨1, _⟩ => rfl

/-- Right of the seam it reads the second array, its column counted from the seam. -/
theorem joinCols_right {a b₁ b₂ b : ℕ} (u : (⟨2, ![a, b₁]⟩ : Shape).Idx → α) (v : (⟨2, ![a, b₂]⟩ : Shape).Idx → α)
    (h : Shape.Concatenates [(⟨2, ![a, b₁]⟩ : Shape), ⟨2, ![a, b₂]⟩] ⟨2, ![a, b]⟩ 1) (p : Fin a) (j : Fin b)
    (hj : ¬ j.val < b₁) (hj₂ : j.val - b₁ < b₂) :
    concatenate ⟨2, ![a, b]⟩ 1 [⟨⟨2, ![a, b₁]⟩, u⟩, ⟨⟨2, ![a, b₂]⟩, v⟩] h (ix2 p j) = v (ix2 p ⟨j.val - b₁, hj₂⟩) :=
  concatenate_pair_apply_right (t := ⟨2, ![a, b]⟩) (1 : Fin 2) u v h (ix2 p j) rfl rfl (ix2 p ⟨j.val - b₁, hj₂⟩)
    (fun ax hne => by
      match ax with
      | ⟨0, _⟩ => rfl
      | ⟨1, _⟩ => exact absurd rfl hne)
    (by show j.val - b₁ + b₁ = j.val; omega)

/-! ## Six columns side by side -/

/-- The `j`-th of six things. -/
def pick6 {β : Type} (c0 c1 c2 c3 c4 c5 : β) (j : Fin 6) : β :=
  match j with
  | ⟨0, _⟩ => c0
  | ⟨1, _⟩ => c1
  | ⟨2, _⟩ => c2
  | ⟨3, _⟩ => c3
  | ⟨4, _⟩ => c4
  | ⟨5, _⟩ => c5
  | ⟨_ + 6, h⟩ => absurd h (Nat.not_lt.2 (Nat.le_add_left _ _))

/-- Six `[a, 1]` columns as the list of pieces a concatenation takes. -/
abbrev cols6 {a : ℕ} (c0 c1 c2 c3 c4 c5 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩]

/-- Six `[a, 1]` columns joined along the column axis: the entry `(p, j)` of the `[a, 6]` result is the entry `(p, 0)`
    of the `j`-th column (the columns before it take up exactly `j` positions of the joined axis). -/
theorem concat6_apply {a : ℕ} (c0 c1 c2 c3 c4 c5 : (⟨2, ![a, 1]⟩ : Shape).Idx → α)
    (h : Shape.Concatenates ((cols6 c0 c1 c2 c3 c4 c5).map (·.1)) ⟨2, ![a, 6]⟩ 1) (p : Fin a) (j : Fin 6) :
    concatenate ⟨2, ![a, 6]⟩ 1 (cols6 c0 c1 c2 c3 c4 c5) h (ix2 p j)
      = pick6 c0 c1 c2 c3 c4 c5 j (ix2 p (0 : Fin 1)) := by
  have hi : ∀ (j : Fin 6) (b : Fin 2), b.cast (rfl : (2 : ℕ) = 2) ≠ (1 : Fin 2) →
      ((ix2 p (0 : Fin 1) : (⟨2, ![a, 1]⟩ : Shape).Idx) b).val
        = ((ix2 p j : (⟨2, ![a, 6]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 6]⟩) (1 : Fin 2) (cols6 c0 c1 c2 c3 c4 c5) h (ix2 p (⟨0, hj⟩ : Fin 6)) 0
      (by show (0 : ℕ) < 6; decide) ⟨2, ![a, 1]⟩ c0 rfl rfl 0 rfl (ix2 p (0 : Fin 1)) (hi _) rfl
  | ⟨1, hj⟩ =>
    exact concatenate_apply_piece (t := ⟨2, ![a, 6]⟩) (1 : Fin 2) (cols6 c0 c1 c2 c3 c4 c5) h (ix2 p (⟨1, hj⟩ : Fin 6)) 1
      (by show (1 : ℕ) < 6; decide) ⟨2, ![a, 1]⟩ c1 rfl rfl 1 rfl (ix2 p (0 : Fin 1)) (hi _) rfl
  | ⟨2, hj⟩ =>
    exact concatenate_apply_piece (t := ⟨2, ![a, 6]⟩) (1 : Fin 2) (cols6 c0 c1 c2 c3 c4 c5) h (ix2 p (⟨2, hj⟩ : Fin 6)) 2
      (by show (2 : ℕ) < 6; decide) ⟨2, ![a, 1]⟩ c2 rfl rfl 2 rfl (ix2 p (0 : Fin 1)) (hi _) rfl
  | ⟨3, hj⟩ =>
    exact concatenate_apply_piece (t := ⟨2, ![a, 6]⟩) (1 : Fin 2) (cols6 c0 c1 c2 c3 c4 c5) h (ix2 p (⟨3, hj⟩ : Fin 6)) 3
      (by show (3 : ℕ) < 6; decide) ⟨2, ![a, 1]⟩ c3 rfl rfl 3 rfl (ix2 p (0 : Fin 1)) (hi _) rfl
  | ⟨4, hj⟩ =>
    exact concatenate_apply_piece (t := ⟨2, ![a, 6]⟩) (1 : Fin 2) (cols6 c0 c1 c2 c3 c4 c5) h (ix2 p (⟨4, hj⟩ : Fin 6)) 4
      (by show (4 : ℕ) < 6; decide) ⟨2, ![a, 1]⟩ c4 rfl rfl 4 rfl (ix2 p (0 : Fin 1)) (hi _) rfl
  | ⟨5, hj⟩ =>
    exact concatenate_apply_piece (t := ⟨2, ![a, 6]⟩) (1 : Fin 2) (cols6 c0 c1 c2 c3 c4 c5) h (ix2 p (⟨5, hj⟩ : Fin 6)) 5
      (by show (5 : ℕ) < 6; decide) ⟨2, ![a, 1]⟩ c5 rfl rfl 5 rfl (ix2 p (0 : Fin 1)) (hi _) rfl
  | ⟨n + 6, hn⟩ => exact absurd hn (Nat.not_lt.2 (Nat.le_add_left _ _))

/-! ## A dense layer with positive part, as a kernel spells it -/

/-- `max (A · W + b, 0)` of an `M × K` input, a `K × N` weight matrix and a `1 × N` bias row, at `(p, j)`. -/
theorem denseVec_apply {M K N : ℕ} (d : DotDims ⟨2, ![M, K]⟩ ⟨2, ![K, N]⟩ ⟨2, ![M, N]⟩) (hd : d = DotDims.plain M K N)
    (A : FVec Ideal ⟨2, ![M, K]⟩ .f32) (W : FVec Ideal ⟨2, ![K, N]⟩ .bf16) (bias : FVec Ideal ⟨2, ![1, N]⟩ .f32)
    (hlt : FTy.bf16.bits < FTy.f32.bits)
    (hW : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (j : Fin N) :
    maximumf
        (addf
          (matmul d none (truncf .bf16 A hlt) (shapeCast ⟨2, ![K, N]⟩ W hW)
            (constant (F := Ideal) ⟨2, ![M, N]⟩ .f32 0x00000000#32))
          (broadcastTo ⟨2, ![M, N]⟩ (shapeCast ⟨2, ![1, N]⟩ bias hb) hbc))
        (broadcast ⟨2, ![M, N]⟩ (Scalar.ofBits (F := Ideal) .f32 0x00000000#32)) (ix2 p j)
      = max ((∑ c : Fin K, A (ix2 p c) * W (ix2 c j)) + bias (ix2 (0 : Fin 1) j)) (Ideal.ofBits .f32 0x00000000#32) := by
  rw [maximumf_apply, addf_apply, Cert.LibPlain.matmul_zero_apply d hd, broadcastTo_1b_ab_apply, shapeCast_self,
    shapeCast_self]
  rfl

end Cert.LibRowOps

end
-- ==== Proof.RefDense.lean ====
/-
  The reference's three dense layers, read at a row.

  Each layer is a `dot_general` with the weight matrix, the bias broadcast over the rows, and the maximum with a
  broadcast zero; at `(r, j)` it is the specification's dense layer applied to what the previous layer gives row `r`.
-/
import proofs.«139536_j75840532512772_2_alg».proof.Proof.RefReadP
import proofs.«139536_j75840532512772_2_alg».proof.Proof.RowNet
import proofs.«139536_j75840532512772_2_alg».proof.Proof.LibIdx
import Idealize.ShloMosaic.Lib.IdealHost

noncomputable section

namespace Cert.ReferenceIdeal.RowValue

open Cert.ReferenceIdeal Cert.ReferenceIdeal.ReadP Idealize.ShloMosaic Idealize.ShloMosaic.ValueIdx Cert.RowNet
open Cert.Proof.LibIdx

/-- Row `r` of the input, as a function of the column. -/
abbrev rowOf (x0 : (⟨S65536x365, .f32⟩ : BufTy).Contents (Elt Ideal)) (r : Fin 65536) : Fin 365 → EReal := fun k => x0 (ix2 r k)

/-- A weight matrix as a function of its coordinates. -/
abbrev matOf {a b : ℕ} (w : (⟨⟨2, ![a, b]⟩, .f32⟩ : BufTy).Contents (Elt Ideal)) : Fin a → Fin b → EReal := fun c j => w (ix2 c j)

/-- A bias vector as a function of its coordinate. -/
abbrev vecOf {b : ℕ} (v : (⟨⟨1, ![b]⟩, .f32⟩ : BufTy).Contents (Elt Ideal)) : Fin b → EReal := fun j => v (ix1 j)

variable (x0 : (⟨S65536x365, .f32⟩ : BufTy).Contents (Elt Ideal)) (x1 : (⟨S365x512, .f32⟩ : BufTy).Contents (Elt Ideal)) (x2 : (⟨S512, .f32⟩ : BufTy).Contents (Elt Ideal)) (x3 : (⟨S512x256, .f32⟩ : BufTy).Contents (Elt Ideal))
  (x4 : (⟨S256, .f32⟩ : BufTy).Contents (Elt Ideal)) (x5 : (⟨S256x128, .f32⟩ : BufTy).Contents (Elt Ideal)) (x6 : (⟨S128, .f32⟩ : BufTy).Contents (Elt Ideal))

/-- The first layer at `(r, j)`. -/
theorem h1_apply (r : Fin 65536) (j : Fin 512) :
    val_main_v4 (F := Ideal) x0 x1 x2 (ix2 r j) = dense (matOf x1) (vecOf x2) (rowOf x0 r) j := by
  rw [val_main_v4_apply, val_main_v3_apply, val_main_v0_apply, val_main_v2_apply, val_main_v1_apply,
    val_main_call0_v0_apply, val_main_call0_cst_apply]
  refine congrArg₂ max (congrArg₂ (· + ·) (Finset.sum_congr rfl fun k _ => congrArg₂ (· * ·) ?_ ?_) ?_) rfl
  · exact congrArg x0 (ix2_ext _ r k rfl rfl)
  · exact congrArg x1 (ix2_ext _ k j rfl rfl)
  · exact congrArg x2 (ix1_ext _ j rfl)

/-- The second layer at `(r, j)`. -/
theorem h2_apply (r : Fin 65536) (j : Fin 256) :
    val_main_v9 (F := Ideal) x0 x1 x2 x3 x4 (ix2 r j)
      = dense (matOf x3) (vecOf x4) (dense (matOf x1) (vecOf x2) (rowOf x0 r)) j := by
  rw [val_main_v9_apply, val_main_v8_apply, val_main_v5_apply, val_main_v7_apply, val_main_v6_apply,
    val_main_call1_v0_apply, val_main_call1_cst_apply]
  refine congrArg₂ max (congrArg₂ (· + ·) (Finset.sum_congr rfl fun k _ => congrArg₂ (· * ·) ?_ ?_) ?_) rfl
  · exact (congrArg (val_main_v4 (F := Ideal) x0 x1 x2) (ix2_ext _ r k rfl rfl)).trans (h1_apply x0 x1 x2 r k)
  · exact congrArg x3 (ix2_ext _ k j rfl rfl)
  · exact congrArg x4 (ix1_ext _ j rfl)

/-- The third layer, the 128 features, at `(r, j)`. -/
theorem h3_apply (r : Fin 65536) (j : Fin 128) :
    val_main_v14 (F := Ideal) x0 x1 x2 x3 x4 x5 x6 (ix2 r j)
      = dense (matOf x5) (vecOf x6) (dense (matOf x3) (vecOf x4) (dense (matOf x1) (vecOf x2) (rowOf x0 r))) j := by
  rw [val_main_v14_apply, val_main_v13_apply, val_main_v10_apply, val_main_v12_apply, val_main_v11_apply,
    val_main_call2_v0_apply, val_main_call2_cst_apply]
  refine congrArg₂ max (congrArg₂ (· + ·) (Finset.sum_congr rfl fun k _ => congrArg₂ (· * ·) ?_ ?_) ?_) rfl
  · exact (congrArg (val_main_v9 (F := Ideal) x0 x1 x2 x3 x4) (ix2_ext _ r k rfl rfl)).trans (h2_apply x0 x1 x2 x3 x4 r k)
  · exact congrArg x5 (ix2_ext _ k j rfl rfl)
  · exact congrArg x6 (ix1_ext _ j rfl)

end Cert.ReferenceIdeal.RowValue

end
-- ==== Proof.RefStats.lean ====
/-
  The reference's row statistics, read at a row.

  The reference computes the mean as a kept column, the deviations and their powers over the whole array, the sums
  along the rows from the f32 word of zero (which adds nothing), and stacks the six statistics as six columns of a
  65536 × 6 array. At row `r` each stage is the specification's function of row `r` alone, and the stacked array at
  `(r, k)` is the `k`-th statistic.
-/
import proofs.«139536_j75840532512772_2_alg».proof.Proof.RefReadP
import proofs.«139536_j75840532512772_2_alg».proof.Proof.RowNet
import proofs.«139536_j75840532512772_2_alg».proof.Proof.LibIdx
import proofs.«139536_j75840532512772_2_alg».proof.Proof.LibRowOps
import proofs.«139536_j75840532512772_2_alg».proof.Proof.RefDense
import Idealize.ShloMosaic.Lib.IdealHost

noncomputable section

namespace Cert.ReferenceIdeal.RowValue

open Cert.ReferenceIdeal Cert.ReferenceIdeal.ReadP Idealize.ShloMosaic Idealize.ShloMosaic.ValueIdx Cert.RowNet
open Cert.Proof.LibIdx

variable (x0 : (⟨S65536x365, .f32⟩ : BufTy).Contents (Elt Ideal))

/-- The mean column at row `r`. -/
theorem mean_apply (r : Fin 65536) (u : Fin 1) : val_main_v18 (F := Ideal) x0 (ix2 r u) = mean (rowOf x0 r) := by
  rw [val_main_v18_apply, val_main_v16_apply, val_main_v15_apply, val_main_v17_apply, val_main_cst_0_apply,
    val_main_cst_apply]
  refine congrArg₂ Ideal.div ((zero_word_add _).trans ?_) rfl
  exact Finset.sum_congr rfl fun k _ => congrArg x0 (ix2_ext _ r k rfl rfl)

/-- The deviations at `(r, k)`. -/
theorem dev_apply (r : Fin 65536) (k : Fin 365) : val_main_v20 (F := Ideal) x0 (ix2 r k) = dev (rowOf x0 r) k := by
  rw [val_main_v20_apply, val_main_v19_apply]
  refine congrArg (x0 (ix2 r k) - ·) ?_
  exact (congrArg (val_main_v18 (F := Ideal) x0) (ix2_ext _ r (0 : Fin 1) rfl rfl)).trans (mean_apply x0 r 0)

/-- The squared deviations at `(r, k)`, in each of the three places the reference forms them. -/
theorem sq_apply (r : Fin 65536) (k : Fin 365) : val_main_v21 (F := Ideal) x0 (ix2 r k) = sq (rowOf x0 r) k := by
  rw [val_main_v21_apply]
  exact congrArg₂ (· * ·) (dev_apply x0 r k) (dev_apply x0 r k)

theorem sq_apply' (r : Fin 65536) (k : Fin 365) : val_main_v26 (F := Ideal) x0 (ix2 r k) = sq (rowOf x0 r) k := by
  rw [val_main_v26_apply]
  exact congrArg₂ (· * ·) (dev_apply x0 r k) (dev_apply x0 r k)

theorem sq_apply'' (r : Fin 65536) (k : Fin 365) : val_main_v31 (F := Ideal) x0 (ix2 r k) = sq (rowOf x0 r) k := by
  rw [val_main_v31_apply]
  exact congrArg₂ (· * ·) (dev_apply x0 r k) (dev_apply x0 r k)

/-- The standard deviation at row `r`. -/
theorem sigma_apply (r : Fin 65536) : val_main_v25 (F := Ideal) x0 (ix1 r) = sigma (rowOf x0 r) := by
  rw [val_main_v25_apply, val_main_v24_apply, val_main_v22_apply, val_main_v23_apply, val_main_cst_2_apply,
    val_main_cst_1_apply]
  refine congrArg Ideal.sqrt (congrArg₂ Ideal.div ((zero_word_add _).trans ?_) rfl)
  exact Finset.sum_congr rfl fun k _ =>
    (congrArg (val_main_v21 (F := Ideal) x0) (ix2_ext _ r k rfl rfl)).trans (sq_apply x0 r k)

/-- The third standardized moment at row `r`. -/
theorem skew_apply (r : Fin 65536) : val_main_v40 (F := Ideal) x0 (ix1 r) = skew (rowOf x0 r) := by
  rw [val_main_v40_apply, val_main_v30_apply, val_main_v28_apply, val_main_v29_apply, val_main_cst_4_apply,
    val_main_cst_3_apply, val_main_v39_apply, val_main_v37_apply, val_main_v36_apply, val_main_v38_apply,
    val_main_cst_7_apply]
  refine congrArg₂ Ideal.div (congrArg₂ Ideal.div ((zero_word_add _).trans ?_) rfl) (congrArg₂ (· + ·) ?_ rfl)
  · refine Finset.sum_congr rfl fun k _ => ?_
    refine (congrArg (val_main_v27 (F := Ideal) x0) (ix2_ext _ r k rfl rfl)).trans ?_
    rw [val_main_v27_apply]
    exact congrArg₂ (· * ·) (sq_apply' x0 r k) (dev_apply x0 r k)
  · rw [sigma_apply x0 r]
    rfl

/-- The fourth standardized moment at row `r`. -/
theorem kurt_apply (r : Fin 65536) : val_main_v45 (F := Ideal) x0 (ix1 r) = kurt (rowOf x0 r) := by
  rw [val_main_v45_apply, val_main_v35_apply, val_main_v33_apply, val_main_v34_apply, val_main_cst_6_apply,
    val_main_cst_5_apply, val_main_v44_apply, val_main_v42_apply, val_main_v41_apply, val_main_v43_apply,
    val_main_cst_8_apply]
  refine congrArg₂ Ideal.div (congrArg₂ Ideal.div ((zero_word_add _).trans ?_) rfl) (congrArg₂ (· + ·) ?_ rfl)
  · refine Finset.sum_congr rfl fun k _ => ?_
    refine (congrArg (val_main_v32 (F := Ideal) x0) (ix2_ext _ r k rfl rfl)).trans ?_
    rw [val_main_v32_apply]
    exact congrArg₂ (· * ·) (sq_apply'' x0 r k) (sq_apply'' x0 r k)
  · rw [sigma_apply x0 r]
    rfl

/-- The least entry of row `r`. -/
theorem lo_apply (r : Fin 65536) : val_main_v47 (F := Ideal) x0 (ix1 r) = lo (rowOf x0 r) := by
  unfold val_main_v47
  exact Cert.LibRowOps.hostRowFold_apply (FloatOps.minimumf (F := Ideal) (φ := .f32)) x0 (val_main_cst_9 (F := Ideal)) _ (by decide) _ r

/-- The greatest entry of row `r`. -/
theorem hi_apply (r : Fin 65536) : val_main_v48 (F := Ideal) x0 (ix1 r) = hi (rowOf x0 r) := by
  unfold val_main_v48
  exact Cert.LibRowOps.hostRowFold_apply (FloatOps.maximumf (F := Ideal) (φ := .f32)) x0 (val_main_cst_10 (F := Ideal)) _ (by decide) _ r

/-- The six statistics stacked as columns, at `(r, k)`. -/
theorem stats_apply (r : Fin 65536) (k : Fin 6) : val_main_v55 (F := Ideal) x0 (ix2 r k) = stats (rowOf x0 r) k := by
  unfold val_main_v55
  refine (Cert.LibRowOps.concat6_apply _ _ _ _ _ _ _ r k).trans ?_
  match k with
  | ⟨0, _⟩ =>
    show val_main_v49 (F := Ideal) x0 (ix2 r (0 : Fin 1)) = mean (rowOf x0 r)
    rw [val_main_v49_apply, val_main_v46_apply]
    exact (congrArg (val_main_v18 (F := Ideal) x0) (ix2_ext _ r (0 : Fin 1) (Nat.div_one _) rfl)).trans (mean_apply x0 r 0)
  | ⟨1, _⟩ =>
    show val_main_v50 (F := Ideal) x0 (ix2 r (0 : Fin 1)) = sigma (rowOf x0 r)
    rw [val_main_v50_apply]
    exact (congrArg (val_main_v25 (F := Ideal) x0) (ix1_ext _ r rfl)).trans (sigma_apply x0 r)
  | ⟨2, _⟩ =>
    show val_main_v51 (F := Ideal) x0 (ix2 r (0 : Fin 1)) = lo (rowOf x0 r)
    rw [val_main_v51_apply]
    exact (congrArg (val_main_v47 (F := Ideal) x0) (ix1_ext _ r rfl)).trans (lo_apply x0 r)
  | ⟨3, _⟩ =>
    show val_main_v52 (F := Ideal) x0 (ix2 r (0 : Fin 1)) = hi (rowOf x0 r)
    rw [val_main_v52_apply]
    exact (congrArg (val_main_v48 (F := Ideal) x0) (ix1_ext _ r rfl)).trans (hi_apply x0 r)
  | ⟨4, _⟩ =>
    show val_main_v53 (F := Ideal) x0 (ix2 r (0 : Fin 1)) = skew (rowOf x0 r)
    rw [val_main_v53_apply]
    exact (congrArg (val_main_v40 (F := Ideal) x0) (ix1_ext _ r rfl)).trans (skew_apply x0 r)
  | ⟨5, _⟩ =>
    show val_main_v54 (F := Ideal) x0 (ix2 r (0 : Fin 1)) = kurt (rowOf x0 r)
    rw [val_main_v54_apply]
    exact (congrArg (val_main_v45 (F := Ideal) x0) (ix1_ext _ r rfl)).trans (kurt_apply x0 r)
  | ⟨n + 6, hn⟩ => exact absurd hn (Nat.not_lt.2 (Nat.le_add_left _ _))

end Cert.ReferenceIdeal.RowValue

end
-- ==== Proof.RefHead.lean ====
/-
  The reference's head, read at a row, and the reference's result.

  The stacked statistics times the 6 × 32 matrix plus its bias is the specification's projection; the features and the
  projection joined along the columns are its joined row; two more dense layers give the head's 32 numbers; the last
  `dot_general` with the 32 × 1 matrix is the weighted sum; and the reference spells the logistic function as
  `1 / (1 + exp (-z))` with the f32 word of one, which denotes one.
-/
import proofs.«139536_j75840532512772_2_alg».proof.Proof.RefReadP
import proofs.«139536_j75840532512772_2_alg».proof.Proof.RowNet
import proofs.«139536_j75840532512772_2_alg».proof.Proof.LibIdx
import proofs.«139536_j75840532512772_2_alg».proof.Proof.LibRowOps
import proofs.«139536_j75840532512772_2_alg».proof.Proof.RefDense
import proofs.«139536_j75840532512772_2_alg».proof.Proof.RefStats
import proofs.«139536_j75840532512772_2_alg».proof.Proof.NetArrays
import Idealize.ShloMosaic.Lib.IdealHost

noncomputable section

namespace Cert.ReferenceIdeal.RowValue

open Cert.ReferenceIdeal Cert.ReferenceIdeal.ReadP Idealize.ShloMosaic Idealize.ShloMosaic.ValueIdx Cert.RowNet
open Cert.Proof.LibIdx

variable (x0 : (⟨S65536x365, .f32⟩ : BufTy).Contents (Elt Ideal)) (x1 : (⟨S365x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S6x32, .f32⟩ : BufTy).Contents (Elt Ideal)) (x8 : (⟨S32, .f32⟩ : BufTy).Contents (Elt Ideal)) (x9 : (⟨S160x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal))

/-- The network's parameters read off the reference's argument arrays. -/
abbrev params : Params := paramsOf x1 x2 x3 x4 x5 x6 x7 x8 x9 x10 x11 x12 x13 x14

/-- The projected statistics at `(r, j)`. -/
theorem proj_apply (r : Fin 65536) (j : Fin 32) :
    val_main_v59 (F := Ideal) x0 x7 x8 (ix2 r j) = proj (matOf x7) (vecOf x8) (rowOf x0 r) j := by
  rw [val_main_v59_apply, val_main_v56_apply, val_main_v58_apply, val_main_v57_apply]
  refine congrArg₂ (· + ·) (Finset.sum_congr rfl fun k _ => congrArg₂ (· * ·) ?_ ?_) ?_
  · exact (congrArg (val_main_v55 (F := Ideal) x0) (ix2_ext _ r k rfl rfl)).trans (stats_apply x0 r k)
  · exact congrArg x7 (ix2_ext _ k j rfl rfl)
  · exact congrArg x8 (ix1_ext _ j rfl)

/-- The joined row at `(r, e)`. -/
theorem join_apply (r : Fin 65536) (e : Fin 160) :
    val_main_v60 (F := Ideal) x0 x1 x2 x3 x4 x5 x6 x7 x8 (ix2 r e)
      = join (feat (params x1 x2 x3 x4 x5 x6 x7 x8 x9 x10 x11 x12 x13 x14) (rowOf x0 r)) (proj (matOf x7) (vecOf x8) (rowOf x0 r)) e := by
  unfold val_main_v60 join
  by_cases he : e.val < 128
  · rw [dif_pos he]
    exact (Cert.LibRowOps.joinCols_left _ _ _ r e he).trans (h3_apply x0 x1 x2 x3 x4 x5 x6 r _)
  · rw [dif_neg he]
    have he₂ : e.val - 128 < 32 := by have := e.isLt; omega
    exact (Cert.LibRowOps.joinCols_right _ _ _ r e he he₂).trans (proj_apply x0 x7 x8 r _)

/-- The head's first layer at `(r, j)`. -/
theorem c1_apply (r : Fin 65536) (j : Fin 64) :
    val_main_v65 (F := Ideal) x0 x1 x2 x3 x4 x5 x6 x7 x8 x9 x10 (ix2 r j)
      = dense (matOf x9) (vecOf x10)
          (join (feat (params x1 x2 x3 x4 x5 x6 x7 x8 x9 x10 x11 x12 x13 x14) (rowOf x0 r)) (proj (matOf x7) (vecOf x8) (rowOf x0 r))) j := by
  rw [val_main_v65_apply, val_main_v64_apply, val_main_v61_apply, val_main_v63_apply, val_main_v62_apply,
    val_main_call3_v0_apply, val_main_call3_cst_apply]
  refine congrArg₂ max (congrArg₂ (· + ·) (Finset.sum_congr rfl fun k _ => congrArg₂ (· * ·) ?_ ?_) ?_) rfl
  · exact (congrArg (val_main_v60 (F := Ideal) x0 x1 x2 x3 x4 x5 x6 x7 x8) (ix2_ext _ r k rfl rfl)).trans
      (join_apply x0 x1 x2 x3 x4 x5 x6 x7 x8 x9 x10 x11 x12 x13 x14 r k)
  · exact congrArg x9 (ix2_ext _ k j rfl rfl)
  · exact congrArg x10 (ix1_ext _ j rfl)

/-- The head's 32 numbers at `(r, j)`. -/
theorem head_apply (r : Fin 65536) (j : Fin 32) :
    val_main_v70 (F := Ideal) x0 x1 x2 x3 x4 x5 x6 x7 x8 x9 x10 x11 x12 (ix2 r j) = head (params x1 x2 x3 x4 x5 x6 x7 x8 x9 x10 x11 x12 x13 x14) (rowOf x0 r) j := by
  rw [val_main_v70_apply, val_main_v69_apply, val_main_v66_apply, val_main_v68_apply, val_main_v67_apply,
    val_main_call4_v0_apply, val_main_call4_cst_apply]
  refine congrArg₂ max (congrArg₂ (· + ·) (Finset.sum_congr rfl fun k _ => congrArg₂ (· * ·) ?_ ?_) ?_) rfl
  · exact (congrArg (val_main_v65 (F := Ideal) x0 x1 x2 x3 x4 x5 x6 x7 x8 x9 x10) (ix2_ext _ r k rfl rfl)).trans
      (c1_apply x0 x1 x2 x3 x4 x5 x6 x7 x8 x9 x10 x11 x12 x13 x14 r k)
  · exact congrArg x11 (ix2_ext _ k j rfl rfl)
  · exact congrArg x12 (ix1_ext _ j rfl)

/-- THE REFERENCE'S RESULT at row `r` is the network's value on row `r` of the input. -/
theorem out_apply (r : Fin 65536) :
    val_main_v81 (F := Ideal) x0 x1 x2 x3 x4 x5 x6 x7 x8 x9 x10 x11 x12 x13 x14 (ix1 r) = out (params x1 x2 x3 x4 x5 x6 x7 x8 x9 x10 x11 x12 x13 x14) (rowOf x0 r) := by
  rw [val_main_v81_apply, val_main_v80_apply, val_main_v79_apply, val_main_cst_12_apply, val_main_v78_apply,
    val_main_v77_apply, val_main_cst_11_apply, val_main_v76_apply, val_main_v75_apply, val_main_v74_apply,
    val_main_v71_apply, val_main_v73_apply, val_main_v72_apply]
  refine Eq.trans ?_ (logistic_eq _ Ideal.ofBits_one_f32)
  refine congrArg (fun z => Ideal.div (lit 0x3F800000#32) (lit 0x3F800000#32 + Ideal.exp (-z))) ?_
  refine congrArg₂ (· + ·) (Finset.sum_congr rfl fun k _ => congrArg₂ (· * ·) ?_ ?_) ?_
  · exact (congrArg (val_main_v70 (F := Ideal) x0 x1 x2 x3 x4 x5 x6 x7 x8 x9 x10 x11 x12) (ix2_ext _ r k (Nat.div_one _) rfl)).trans
      (head_apply x0 x1 x2 x3 x4 x5 x6 x7 x8 x9 x10 x11 x12 x13 x14 r k)
  · exact congrArg x13 (ix2_ext _ k (0 : Fin 1) rfl rfl)
  · exact congrArg x14 (ix1_ext _ (0 : Fin 1) rfl)

/-- So the reference's result array is the network's result as a function of the argument arrays. -/
theorem result_eq : val_main_v81 (F := Ideal) x0 x1 x2 x3 x4 x5 x6 x7 x8 x9 x10 x11 x12 x13 x14 = netOf x0 x1 x2 x3 x4 x5 x6 x7 x8 x9 x10 x11 x12 x13 x14 := by
  funext i
  obtain ⟨r, rfl⟩ : ∃ r : Fin 65536, i = ix1 r := ⟨i 0, eq_ix1 i⟩
  exact out_apply x0 x1 x2 x3 x4 x5 x6 x7 x8 x9 x10 x11 x12 x13 x14 r

end Cert.ReferenceIdeal.RowValue

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.KerStats.lean ====
/-
  The kernel's row statistics, read at a row of the block.

  For the block `X0` of 1024 input rows that a grid point holds, each statistics payload of the body is, at row `p`,
  the corresponding function of that row alone: the mean column, the deviations from it and their squares, the
  standard deviation, the two standardized moments, the least and the greatest entry. The kernel cubes the deviation
  as `σ · (σ · σ)`, the specification as `(σ · σ) · σ`: one product of three equal factors.
-/
import proofs.«139536_j75840532512772_2_alg».proof.Proof.Gen.KernelIdeal.Skeleton
import proofs.«139536_j75840532512772_2_alg».proof.Proof.RowNet
import proofs.«139536_j75840532512772_2_alg».proof.Proof.LibRowOps
import proofs.«139536_j75840532512772_2_alg».proof.Proof.LibKeepdims
import proofs.«139536_j75840532512772_2_alg».proof.Proof.LibColumns
import Idealize.ShloMosaic.Lib.ValueLayout

noncomputable section

namespace Cert.KernelIdeal.RowValue

open Cert.KernelIdeal Cert.KernelIdeal.Gen Idealize.ShloMosaic Idealize.ShloMosaic.ValueIdx Cert.RowNet

/-- Row `p` of a two-dimensional block, as a function of the column. -/
abbrev rowOf {a b : ℕ} (X : FVec Ideal ⟨2, ![a, b]⟩ .f32) (p : Fin a) : Fin b → EReal := fun k => X (ix2 p k)

/-- A two-dimensional block as a function of its two coordinates. -/
abbrev matOf {a b : ℕ} {φ : FTy} (X : FVec Ideal ⟨2, ![a, b]⟩ φ) : Fin a → Fin b → EReal := fun c j => X (ix2 c j)

/-- A one-row block as a function of the column. -/
abbrev biasOf {b : ℕ} (X : FVec Ideal ⟨2, ![1, b]⟩ .f32) : Fin b → EReal := fun j => X (ix2 (0 : Fin 1) j)

variable (X0 : FVec Ideal S1024x365 .f32)

/-- The mean column at row `p` is the row's mean. -/
theorem mean_apply (p : Fin 1024) (u : Fin 1) : k0_pay3 (F := Ideal) X0 (ix2 p u) = mean (rowOf X0 p) := by
  unfold k0_pay3
  refine congrArg₂ Ideal.div ?_ rfl
  refine (Cert.LibKeepdims.shapeCast_a_a1_apply _ _ p u).trans ?_
  exact Cert.LibColumns.rowSum_apply X0 _ _ _ p

/-- The row minimum at row `p` is the row's least entry. -/
theorem lo_apply (p : Fin 1024) : k0_pay4 (F := Ideal) X0 (ix1 p) = lo (rowOf X0 p) := by
  unfold k0_pay4
  exact Cert.LibRowOps.rowMin_apply X0 _ _ _ _ p

/-- The deviations at `(p, k)`. -/
theorem dev_apply (p : Fin 1024) (k : Fin 365) :
    k0_pay5 (F := Ideal) X0 (k0_pay3 X0) (ix2 p k) = dev (rowOf X0 p) k := by
  unfold k0_pay5
  refine congrArg (X0 (ix2 p k) - ·) ?_
  exact (Cert.LibKeepdims.broadcastTo_a1_ab_apply _ _ p k).trans (mean_apply X0 p 0)

/-- The squared deviations at `(p, k)`. -/
theorem sq_apply (p : Fin 1024) (k : Fin 365) :
    k0_pay6 (F := Ideal) X0 (k0_pay3 X0) (ix2 p k) = sq (rowOf X0 p) k := by
  unfold k0_pay6
  exact congrArg₂ (· * ·) (dev_apply X0 p k) (dev_apply X0 p k)

/-- The standard deviation column at row `p`. -/
theorem sigma_apply (p : Fin 1024) (u : Fin 1) :
    k0_pay7 (F := Ideal) X0 (k0_pay3 X0) (ix2 p u) = sigma (rowOf X0 p) := by
  unfold k0_pay7
  refine congrArg Ideal.sqrt (congrArg₂ Ideal.div ?_ rfl)
  refine (Cert.LibKeepdims.shapeCast_a_a1_apply _ _ p u).trans ?_
  refine (Cert.LibColumns.rowSum_apply _ _ _ _ p).trans ?_
  exact Finset.sum_congr rfl fun k _ => sq_apply X0 p k

/-- The third standardized moment at row `p`. -/
theorem skew_apply (p : Fin 1024) (u : Fin 1) :
    k0_pay8 (F := Ideal) X0 (k0_pay3 X0) (ix2 p u) = skew (rowOf X0 p) := by
  unfold k0_pay8
  refine congrArg₂ Ideal.div (congrArg₂ Ideal.div ?_ rfl) (congrArg₂ (· + ·) ?_ rfl)
  · refine (Cert.LibKeepdims.shapeCast_a_a1_apply _ _ p u).trans ?_
    refine (Cert.LibColumns.rowSum_apply _ _ _ _ p).trans ?_
    exact Finset.sum_congr rfl fun k _ => congrArg₂ (· * ·) (sq_apply X0 p k) (dev_apply X0 p k)
  · show k0_pay7 (F := Ideal) X0 (k0_pay3 X0) (ix2 p u)
        * (k0_pay7 (F := Ideal) X0 (k0_pay3 X0) (ix2 p u) * k0_pay7 (F := Ideal) X0 (k0_pay3 X0) (ix2 p u)) = _
    rw [sigma_apply X0 p u]
    exact cube_comm _

/-- The fourth standardized moment at row `p`. -/
theorem kurt_apply (p : Fin 1024) (u : Fin 1) :
    k0_pay9 (F := Ideal) X0 (k0_pay3 X0) (ix2 p u) = kurt (rowOf X0 p) := by
  unfold k0_pay9
  refine congrArg₂ Ideal.div (congrArg₂ Ideal.div ?_ rfl) (congrArg₂ (· + ·) ?_ rfl)
  · refine (Cert.LibKeepdims.shapeCast_a_a1_apply _ _ p u).trans ?_
    refine (Cert.LibColumns.rowSum_apply _ _ _ _ p).trans ?_
    exact Finset.sum_congr rfl fun k _ => congrArg₂ (· * ·) (sq_apply X0 p k) (sq_apply X0 p k)
  · show k0_pay7 (F := Ideal) X0 (k0_pay3 X0) (ix2 p u) * k0_pay7 (F := Ideal) X0 (k0_pay3 X0) (ix2 p u)
        * (k0_pay7 (F := Ideal) X0 (k0_pay3 X0) (ix2 p u) * k0_pay7 (F := Ideal) X0 (k0_pay3 X0) (ix2 p u)) = _
    rw [sigma_apply X0 p u]

/-- The row maximum, spread over 32 columns, at `(p, j)` is the row's greatest entry. -/
theorem hi_apply (p : Fin 1024) (j : Fin 32) : k0_pay11 (F := Ideal) X0 (ix2 p j) = hi (rowOf X0 p) := by
  unfold k0_pay11
  refine (Cert.LibKeepdims.broadcastTo_a1_ab_apply _ _ p j).trans ?_
  refine (Cert.LibKeepdims.shapeCast_a_a1_apply _ _ p 0).trans ?_
  exact Cert.LibRowOps.rowMax_apply X0 _ _ _ _ p

/-- Row `c` of the 6 × 32 projection matrix, cut out at row offset `o = c` and spread over the 1024 rows, at `(p, j)`. -/
theorem wsRow_apply (X7 : FVec Ideal S6x32 .f32) (o : ℕ) (c : Fin 6) (hc : c.val = o)
    (hs : S6x32.Slices ![o, 0] S1x32) (hb : S1x32.Broadcasts S1024x32) (p : Fin 1024) (j : Fin 32) :
    broadcastTo S1024x32 (extractStridedSlice S1x32 ![o, 0] X7 hs) hb (ix2 p j) = X7 (ix2 c j) := by
  refine (broadcastTo_1b_ab_apply _ _ p j).trans ?_
  refine extractStridedSlice_apply _ X7 hs _ (ix2 c j) fun a => ?_
  match a with
  | ⟨0, _⟩ => show c.val = o + 0; omega
  | ⟨1, _⟩ => show j.val = 0 + j.val; omega

/-- The fourth row of the projection matrix spread over the rows. -/
theorem ws3_apply (X7 : FVec Ideal S6x32 .f32) (p : Fin 1024) (j : Fin 32) :
    k0_pay12 (F := Ideal) X7 (ix2 p j) = X7 (ix2 (3 : Fin 6) j) := by
  unfold k0_pay12
  exact wsRow_apply X7 3 3 rfl _ _ p j

/-- The first three terms of the projection at `(p, j)`: mean, deviation and least entry, each times its row of the matrix. -/
theorem proj3_apply (X7 : FVec Ideal S6x32 .f32) (p : Fin 1024) (j : Fin 32) :
    k0_pay10 (F := Ideal) X0 (k0_pay3 X0) (k0_pay4 X0) X7 (ix2 p j)
      = mean (rowOf X0 p) * X7 (ix2 (0 : Fin 6) j) + sigma (rowOf X0 p) * X7 (ix2 (1 : Fin 6) j)
        + lo (rowOf X0 p) * X7 (ix2 (2 : Fin 6) j) := by
  unfold k0_pay10
  refine congrArg₂ (· + ·) (congrArg₂ (· + ·) (congrArg₂ (· * ·) ?_ ?_) (congrArg₂ (· * ·) ?_ ?_)) (congrArg₂ (· * ·) ?_ ?_)
  · exact (Cert.LibKeepdims.broadcastTo_a1_ab_apply _ _ p j).trans (mean_apply X0 p 0)
  · exact wsRow_apply X7 0 0 rfl _ _ p j
  · exact (Cert.LibKeepdims.broadcastTo_a1_ab_apply _ _ p j).trans (sigma_apply X0 p 0)
  · exact wsRow_apply X7 1 1 rfl _ _ p j
  · refine (Cert.LibKeepdims.broadcastTo_a1_ab_apply _ _ p j).trans ?_
    exact (Cert.LibKeepdims.shapeCast_a_a1_apply _ _ p 0).trans (lo_apply X0 p)
  · exact wsRow_apply X7 2 2 rfl _ _ p j

end Cert.KernelIdeal.RowValue

end
-- ==== Proof.KerDense.lean ====
/-
  The kernel's three dense layers, read at a row of the block.

  The payload that carries the 128 features is three times "a product into a zero accumulator, a bias row broadcast
  over the rows, the maximum with zero"; at `(p, j)` it is the three-layer composition applied to row `p` of the
  input block, with the weight blocks read by their coordinates.
-/
import proofs.«139536_j75840532512772_2_alg».proof.Proof.Gen.KernelIdeal.Skeleton
import proofs.«139536_j75840532512772_2_alg».proof.Proof.RowNet
import proofs.«139536_j75840532512772_2_alg».proof.Proof.LibRowOps
import proofs.«139536_j75840532512772_2_alg».proof.Proof.KerStats

noncomputable section

namespace Cert.KernelIdeal.RowValue

open Cert.KernelIdeal Cert.KernelIdeal.Gen Idealize.ShloMosaic Idealize.ShloMosaic.ValueIdx Cert.RowNet

/-- The 128 features at `(p, j)`. -/
theorem feat_apply (X0 : FVec Ideal S1024x365 .f32) (X1 : FVec Ideal S365x512 .bf16) (X2 : FVec Ideal S1x512 .f32)
    (X3 : FVec Ideal S512x256 .bf16) (X4 : FVec Ideal S1x256 .f32) (X5 : FVec Ideal S256x128 .bf16)
    (X6 : FVec Ideal S1x128 .f32) (p : Fin 1024) (j : Fin 128) :
    k0_pay2 (F := Ideal) X0 X1 X2 X3 X4 X5 X6 (ix2 p j)
      = dense (matOf X5) (biasOf X6) (dense (matOf X3) (biasOf X4) (dense (matOf X1) (biasOf X2) (rowOf X0 p))) j := by
  unfold k0_pay2
  refine (Cert.LibRowOps.denseVec_apply _ rfl _ X5 X6 _ _ _ _ p j).trans ?_
  refine congrArg (fun v => dense (matOf X5) (biasOf X6) v j) (funext fun c => ?_)
  refine (Cert.LibRowOps.denseVec_apply _ rfl _ X3 X4 _ _ _ _ p c).trans ?_
  refine congrArg (fun v => dense (matOf X3) (biasOf X4) v c) (funext fun c' => ?_)
  exact Cert.LibRowOps.denseVec_apply _ rfl X0 X1 X2 _ _ _ _ p c'

end Cert.KernelIdeal.RowValue

end
-- ==== Proof.KerHead.lean ====
/-
  The kernel's head, read at a row of the block.

  From the 128 features and the statistics of row `p` the last payloads form the projected statistics (six products
  added left to right, then the bias), join them to the features, apply two dense layers with positive part, multiply
  by the last layer's weights and sum along the row; the stored value adds the last bias and takes the logistic
  function. The six products added left to right are the sum over the six statistics.
-/
import proofs.«139536_j75840532512772_2_alg».proof.Proof.Gen.KernelIdeal.Skeleton
import proofs.«139536_j75840532512772_2_alg».proof.Proof.RowNet
import proofs.«139536_j75840532512772_2_alg».proof.Proof.LibRowOps
import proofs.«139536_j75840532512772_2_alg».proof.Proof.LibKeepdims
import proofs.«139536_j75840532512772_2_alg».proof.Proof.LibColumns
import proofs.«139536_j75840532512772_2_alg».proof.Proof.KerStats
import Idealize.ShloMosaic.Lib.ValueLayout

noncomputable section

namespace Cert.KernelIdeal.RowValue

open Cert.KernelIdeal Cert.KernelIdeal.Gen Idealize.ShloMosaic Idealize.ShloMosaic.ValueIdx Cert.RowNet

/-- The sum over the six statistics, written out left to right. -/
theorem proj_eq (Ws : Fin 6 → Fin 32 → EReal) (bs : Fin 32 → EReal) {d : ℕ} (x : Fin d → EReal) (j : Fin 32) :
    mean x * Ws 0 j + sigma x * Ws 1 j + lo x * Ws 2 j + hi x * Ws 3 j + skew x * Ws 4 j + kurt x * Ws 5 j + bs j
      = proj Ws bs x j := by
  unfold proj
  rw [Fin.sum_univ_six]
  rfl

/-- The last payload before the store, at row `p`: the weighted sum of the head's 32 numbers — for ANY vectors standing
    for the values computed earlier in the body, as long as they read at row `p` what the specification says. -/
theorem headSum_apply (Q : Params) (x : Fin 365 → EReal) (p : Fin 1024)
    (V30 : FVec Ideal S1024x128 .f32) (V61 V66 : FVec Ideal S1024x1 .f32) (X7 : FVec Ideal S6x32 .f32)
    (V81 V83 V84 : FVec Ideal S1024x32 .f32) (X8 : FVec Ideal S1x32 .f32) (X9 : FVec Ideal S160x64 .bf16)
    (X10 : FVec Ideal S1x64 .f32) (X11 : FVec Ideal S64x32 .bf16) (X12 X13 : FVec Ideal S1x32 .f32)
    (h30 : ∀ j, V30 (ix2 p j) = feat Q x j)
    (h61 : V61 (ix2 p (0 : Fin 1)) = skew x) (h66 : V66 (ix2 p (0 : Fin 1)) = kurt x)
    (h81 : ∀ j, V81 (ix2 p j) = mean x * Q.Ws 0 j + sigma x * Q.Ws 1 j + lo x * Q.Ws 2 j)
    (h83 : ∀ j, V83 (ix2 p j) = hi x) (h84 : ∀ j, V84 (ix2 p j) = Q.Ws 3 j)
    (h7 : ∀ c j, X7 (ix2 c j) = Q.Ws c j) (h8 : ∀ j, X8 (ix2 (0 : Fin 1) j) = Q.bs j)
    (h9 : matOf X9 = Q.Wc1) (h10 : biasOf X10 = Q.bc1) (h11 : matOf X11 = Q.Wc2) (h12 : biasOf X12 = Q.bc2)
    (h13 : ∀ k, X13 (ix2 (0 : Fin 1) k) = Q.wc3 k) (u : Fin 1) :
    k0_pay13 (F := Ideal) V30 V61 V66 X7 V81 V83 V84 X8 X9 X10 X11 X12 X13 (ix2 p u)
      = ∑ k : Fin 32, head Q x k * Q.wc3 k := by
  unfold k0_pay13
  refine (Cert.LibKeepdims.shapeCast_a_a1_apply _ _ p u).trans ?_
  refine (Cert.LibColumns.rowSum_apply _ _ _ _ p).trans ?_
  refine Finset.sum_congr rfl fun k _ => congrArg₂ (· * ·) ?_ ?_
  swap
  · exact (broadcastTo_1b_ab_apply _ _ p k).trans ((congrFun (shapeCast_self X13 _) _).trans (h13 k))
  -- the second dense layer of the head
  refine (Cert.LibRowOps.denseVec_apply _ rfl _ X11 X12 _ _ _ _ p k).trans ?_
  show dense (matOf X11) (biasOf X12) _ k = _
  rw [h11, h12]
  refine congrArg (fun v => dense Q.Wc2 Q.bc2 v k) (funext fun c => ?_)
  -- the first one, on the joined row
  refine (Cert.LibRowOps.denseVec_apply _ rfl _ X9 X10 _ _ _ _ p c).trans ?_
  show dense (matOf X9) (biasOf X10) _ c = _
  rw [h9, h10]
  refine congrArg (fun v => dense Q.Wc1 Q.bc1 v c) (funext fun e => ?_)
  -- the joined row: features left of column 128, projected statistics right of it
  unfold join
  by_cases he : e.val < 128
  · rw [dif_pos he]
    exact (Cert.LibRowOps.joinCols_left _ _ _ p e he).trans (h30 _)
  · rw [dif_neg he]
    have he₂ : e.val - 128 < 32 := by have := e.isLt; omega
    refine (Cert.LibRowOps.joinCols_right _ _ _ p e he he₂).trans ?_
    refine Eq.trans ?_ (proj_eq Q.Ws Q.bs x _)
    refine congrArg₂ (· + ·) (congrArg₂ (· + ·) (congrArg₂ (· + ·) (congrArg₂ (· + ·) (h81 _) ?_) ?_) ?_) ?_
    · exact congrArg₂ (· * ·) (h83 _) (h84 _)
    · refine congrArg₂ (· * ·) ?_ ?_
      · exact (Cert.LibKeepdims.broadcastTo_a1_ab_apply _ _ p _).trans h61
      · exact (wsRow_apply X7 4 4 rfl _ _ p _).trans (h7 _ _)
    · refine congrArg₂ (· * ·) ?_ ?_
      · exact (Cert.LibKeepdims.broadcastTo_a1_ab_apply _ _ p _).trans h66
      · exact (wsRow_apply X7 5 5 rfl _ _ p _).trans (h7 _ _)
    · exact (broadcastTo_1b_ab_apply _ _ p _).trans ((congrFun (shapeCast_self X8 _) _).trans (h8 _))

/-- The stored value at row `p`: the logistic function of the weighted sum plus the last bias. -/
theorem store_apply (V127 : FVec Ideal S1024x1 .f32) (X14 : FVec Ideal S1x1 .f32) (p : Fin 1024) :
    k0_pay1 (F := Ideal) V127 X14 (ix1 p)
      = Ideal.logistic (V127 (ix2 p (0 : Fin 1)) + X14 (ix2 (0 : Fin 1) (0 : Fin 1))) := by
  unfold k0_pay1
  refine (shapeCast_apply _ _ (ix1 p) (ix2 p (0 : Fin 1)) (by
    rw [Shape.rowMajor_val_two, Shape.rowMajor_val_one]
    show p.val * 1 + 0 = p.val
    omega)).trans ?_
  refine congrArg Ideal.logistic (congrArg (V127 (ix2 p (0 : Fin 1)) + ·) ?_)
  exact (broadcastTo_1b_ab_apply _ _ p (0 : Fin 1)).trans (congrFun (shapeCast_self X14 _) _)

end Cert.KernelIdeal.RowValue

end
-- ==== Proof.KerBlocks.lean ====
/-
  From the blocks to the array: the kernel's result is the network's result as a function of its arguments.

  Grid point `t` holds rows `1024·t … 1024·t + 1023` of the input and the whole of every weight and bias array (each
  through the host operation in front of the region: a change of float format, which is the identity on extended
  reals, or a reshape, which keeps the row-major order). So the 1024 numbers it writes back are the network's values
  on those rows, that is, block `t` of the result function; the 64 blocks cover the result array.
-/
import proofs.«139536_j75840532512772_2_alg».proof.Proof.KerValueP
import proofs.«139536_j75840532512772_2_alg».proof.Proof.RowNet
import proofs.«139536_j75840532512772_2_alg».proof.Proof.NetArrays
import proofs.«139536_j75840532512772_2_alg».proof.Proof.KerStats
import proofs.«139536_j75840532512772_2_alg».proof.Proof.KerDense
import proofs.«139536_j75840532512772_2_alg».proof.Proof.KerHead
import Idealize.ShloMosaic.Lib.Pipeline.Value
import Idealize.ShloMosaic.Lib.StableHlo.Run
import Idealize.ShloMosaic.Lib.ValueLayout

noncomputable section

namespace Cert.KernelIdeal.RowValue

open Cert.KernelIdeal Cert.KernelIdeal.Gen Cert.KernelIdeal.ValueP Idealize.ShloMosaic Idealize.ShloMosaic.TcCoe
open Idealize.SL.Sem Idealize.ShloMosaic.ValueIdx Cert.RowNet
open Idealize.ShloMosaic.Pipeline (Dat)

/-! ## One row of one grid point -/

/-- The parameters read off the weight and bias blocks a grid point holds. -/
def blockParams (X1 : FVec Ideal S365x512 .bf16) (X2 : FVec Ideal S1x512 .f32) (X3 : FVec Ideal S512x256 .bf16) (X4 : FVec Ideal S1x256 .f32) (X5 : FVec Ideal S256x128 .bf16) (X6 : FVec Ideal S1x128 .f32) (X7 : FVec Ideal S6x32 .f32) (X8 : FVec Ideal S1x32 .f32) (X9 : FVec Ideal S160x64 .bf16) (X10 : FVec Ideal S1x64 .f32) (X11 : FVec Ideal S64x32 .bf16) (X12 : FVec Ideal S1x32 .f32) (X13 : FVec Ideal S1x32 .f32) (X14 : FVec Ideal S1x1 .f32) : Params where
  W1 := matOf X1
  b1 := biasOf X2
  W2 := matOf X3
  b2 := biasOf X4
  W3 := matOf X5
  b3 := biasOf X6
  Ws := matOf X7
  bs := biasOf X8
  Wc1 := matOf X9
  bc1 := biasOf X10
  Wc2 := matOf X11
  bc2 := biasOf X12
  wc3 := biasOf X13
  bc3 := X14 (ix2 (0 : Fin 1) (0 : Fin 1))

/-- The value the body stores at row `p` of its output block is the network's value on row `p` of its input block. -/
theorem point_eq (X0 : FVec Ideal S1024x365 .f32) (X1 : FVec Ideal S365x512 .bf16) (X2 : FVec Ideal S1x512 .f32) (X3 : FVec Ideal S512x256 .bf16) (X4 : FVec Ideal S1x256 .f32) (X5 : FVec Ideal S256x128 .bf16) (X6 : FVec Ideal S1x128 .f32) (X7 : FVec Ideal S6x32 .f32) (X8 : FVec Ideal S1x32 .f32) (X9 : FVec Ideal S160x64 .bf16) (X10 : FVec Ideal S1x64 .f32) (X11 : FVec Ideal S64x32 .bf16) (X12 : FVec Ideal S1x32 .f32) (X13 : FVec Ideal S1x32 .f32) (X14 : FVec Ideal S1x1 .f32) (p : Fin 1024) :
    k0_pay1 (F := Ideal) (k0_pay13 (k0_pay2 X0 X1 X2 X3 X4 X5 X6) (k0_pay8 X0 (k0_pay3 X0)) (k0_pay9 X0 (k0_pay3 X0)) X7
        (k0_pay10 X0 (k0_pay3 X0) (k0_pay4 X0) X7) (k0_pay11 X0) (k0_pay12 X7) X8 X9 X10 X11 X12 X13) X14 (ix1 p)
      = out (blockParams X1 X2 X3 X4 X5 X6 X7 X8 X9 X10 X11 X12 X13 X14) (rowOf X0 p) := by
  refine (store_apply _ X14 p).trans ?_
  refine congrArg Ideal.logistic (congrArg (· + X14 (ix2 (0 : Fin 1) (0 : Fin 1))) ?_)
  exact headSum_apply (blockParams X1 X2 X3 X4 X5 X6 X7 X8 X9 X10 X11 X12 X13 X14) (rowOf X0 p) p _ _ _ X7 _ _ _ X8 X9 X10 X11 X12 X13
    (fun j => feat_apply X0 X1 X2 X3 X4 X5 X6 p j) (skew_apply X0 p 0) (kurt_apply X0 p 0)
    (fun j => proj3_apply X0 X7 p j) (fun j => hi_apply X0 p j) (fun j => ws3_apply X7 p j)
    (fun _ _ => rfl) (fun _ => rfl) rfl rfl rfl rfl (fun _ => rfl) 0

/-- The same at any index of the output block. -/
theorem point_eq' (X0 : FVec Ideal S1024x365 .f32) (X1 : FVec Ideal S365x512 .bf16) (X2 : FVec Ideal S1x512 .f32) (X3 : FVec Ideal S512x256 .bf16) (X4 : FVec Ideal S1x256 .f32) (X5 : FVec Ideal S256x128 .bf16) (X6 : FVec Ideal S1x128 .f32) (X7 : FVec Ideal S6x32 .f32) (X8 : FVec Ideal S1x32 .f32) (X9 : FVec Ideal S160x64 .bf16) (X10 : FVec Ideal S1x64 .f32) (X11 : FVec Ideal S64x32 .bf16) (X12 : FVec Ideal S1x32 .f32) (X13 : FVec Ideal S1x32 .f32) (X14 : FVec Ideal S1x1 .f32) (y : S1024.Idx) :
    k0_pay1 (F := Ideal) (k0_pay13 (k0_pay2 X0 X1 X2 X3 X4 X5 X6) (k0_pay8 X0 (k0_pay3 X0)) (k0_pay9 X0 (k0_pay3 X0)) X7
        (k0_pay10 X0 (k0_pay3 X0) (k0_pay4 X0) X7) (k0_pay11 X0) (k0_pay12 X7) X8 X9 X10 X11 X12 X13) X14 y
      = out (blockParams X1 X2 X3 X4 X5 X6 X7 X8 X9 X10 X11 X12 X13 X14) (rowOf X0 (⟨(y 0).val, (y 0).isLt⟩ : Fin 1024)) := by
  obtain ⟨p, rfl⟩ : ∃ p : Fin 1024, y = ix1 p := ⟨y 0, eq_ix1 y⟩
  exact point_eq X0 X1 X2 X3 X4 X5 X6 X7 X8 X9 X10 X11 X12 X13 X14 p

variable (m : (ℓ : Loc nD τ sig) → Buf (Elt Ideal) ℓ) (ρ : Dev nD → PrngReg)

/-! ## The printed index maps, decided over the 64 grid points -/

/-- The input block moves with the output block along the rows and stays at column block 0; the output's block index is at most 63. -/
theorem idx0 : ∀ t : Fin cfg0.N, win0_0.index t (0 : Fin 2) = win0_15.index t (0 : Fin 1) ∧ win0_0.index t (1 : Fin 2) = 0
    ∧ win0_15.index t (0 : Fin 1) ≤ 63 :=
  (by decide +kernel : ∀ t : Fin grid0.N, _)

/-- Every one of the 64 row blocks of the output is some point's. -/
theorem idx_onto : ∀ q : Fin 64, ∃ t : Fin cfg0.N, win0_15.index t = ![q.val] :=
  (by decide +kernel : ∀ q : Fin 64, ∃ t : Fin grid0.N, win0_15.index t = ![q.val])

/-- Window 1 stays at block (0, 0): its one block is the whole array. -/
theorem idx1 : ∀ t : Fin cfg0.N, win0_1.index t (0 : Fin 2) = 0 ∧ win0_1.index t (1 : Fin 2) = 0 :=
  (by decide +kernel : ∀ t : Fin grid0.N, _)
/-- Window 2 stays at block (0, 0): its one block is the whole array. -/
theorem idx2 : ∀ t : Fin cfg0.N, win0_2.index t (0 : Fin 2) = 0 ∧ win0_2.index t (1 : Fin 2) = 0 :=
  (by decide +kernel : ∀ t : Fin grid0.N, _)
/-- Window 3 stays at block (0, 0): its one block is the whole array. -/
theorem idx3 : ∀ t : Fin cfg0.N, win0_3.index t (0 : Fin 2) = 0 ∧ win0_3.index t (1 : Fin 2) = 0 :=
  (by decide +kernel : ∀ t : Fin grid0.N, _)
/-- Window 4 stays at block (0, 0): its one block is the whole array. -/
theorem idx4 : ∀ t : Fin cfg0.N, win0_4.index t (0 : Fin 2) = 0 ∧ win0_4.index t (1 : Fin 2) = 0 :=
  (by decide +kernel : ∀ t : Fin grid0.N, _)
/-- Window 5 stays at block (0, 0): its one block is the whole array. -/
theorem idx5 : ∀ t : Fin cfg0.N, win0_5.index t (0 : Fin 2) = 0 ∧ win0_5.index t (1 : Fin 2) = 0 :=
  (by decide +kernel : ∀ t : Fin grid0.N, _)
/-- Window 6 stays at block (0, 0): its one block is the whole array. -/
theorem idx6 : ∀ t : Fin cfg0.N, win0_6.index t (0 : Fin 2) = 0 ∧ win0_6.index t (1 : Fin 2) = 0 :=
  (by decide +kernel : ∀ t : Fin grid0.N, _)
/-- Window 7 stays at block (0, 0): its one block is the whole array. -/
theorem idx7 : ∀ t : Fin cfg0.N, win0_7.index t (0 : Fin 2) = 0 ∧ win0_7.index t (1 : Fin 2) = 0 :=
  (by decide +kernel : ∀ t : Fin grid0.N, _)
/-- Window 8 stays at block (0, 0): its one block is the whole array. -/
theorem idx8 : ∀ t : Fin cfg0.N, win0_8.index t (0 : Fin 2) = 0 ∧ win0_8.index t (1 : Fin 2) = 0 :=
  (by decide +kernel : ∀ t : Fin grid0.N, _)
/-- Window 9 stays at block (0, 0): its one block is the whole array. -/
theorem idx9 : ∀ t : Fin cfg0.N, win0_9.index t (0 : Fin 2) = 0 ∧ win0_9.index t (1 : Fin 2) = 0 :=
  (by decide +kernel : ∀ t : Fin grid0.N, _)
/-- Window 10 stays at block (0, 0): its one block is the whole array. -/
theorem idx10 : ∀ t : Fin cfg0.N, win0_10.index t (0 : Fin 2) = 0 ∧ win0_10.index t (1 : Fin 2) = 0 :=
  (by decide +kernel : ∀ t : Fin grid0.N, _)
/-- Window 11 stays at block (0, 0): its one block is the whole array. -/
theorem idx11 : ∀ t : Fin cfg0.N, win0_11.index t (0 : Fin 2) = 0 ∧ win0_11.index t (1 : Fin 2) = 0 :=
  (by decide +kernel : ∀ t : Fin grid0.N, _)
/-- Window 12 stays at block (0, 0): its one block is the whole array. -/
theorem idx12 : ∀ t : Fin cfg0.N, win0_12.index t (0 : Fin 2) = 0 ∧ win0_12.index t (1 : Fin 2) = 0 :=
  (by decide +kernel : ∀ t : Fin grid0.N, _)
/-- Window 13 stays at block (0, 0): its one block is the whole array. -/
theorem idx13 : ∀ t : Fin cfg0.N, win0_13.index t (0 : Fin 2) = 0 ∧ win0_13.index t (1 : Fin 2) = 0 :=
  (by decide +kernel : ∀ t : Fin grid0.N, _)
/-- Window 14 stays at block (0, 0): its one block is the whole array. -/
theorem idx14 : ∀ t : Fin cfg0.N, win0_14.index t (0 : Fin 2) = 0 ∧ win0_14.index t (1 : Fin 2) = 0 :=
  (by decide +kernel : ∀ t : Fin grid0.N, _)

/-! ## The arrays the windows stage, as the region finds them: the launch arrays through the host operations in front of it -/

/-- A change of float format is the identity on extended reals. -/
theorem V_main_v0 (c : Dev nD) : (V m c main_v0 : S365x512.Idx → EReal) = (m ((c : Thread nD τ).loc main_arg1)) := by
  dsimp only [Gen.V, Gen.hostOps0]; after_results; rfl
theorem V_main_v5 (c : Dev nD) : (V m c main_v5 : S1x512.Idx → EReal) = shapeCast S1x512 (m ((c : Thread nD τ).loc main_arg2)) shapeCasts_S512_S1x512 := by
  dsimp only [Gen.V, Gen.hostOps0]; after_results; rfl
/-- A change of float format is the identity on extended reals. -/
theorem V_main_v1 (c : Dev nD) : (V m c main_v1 : S512x256.Idx → EReal) = (m ((c : Thread nD τ).loc main_arg3)) := by
  dsimp only [Gen.V, Gen.hostOps0]; after_results; rfl
theorem V_main_v6 (c : Dev nD) : (V m c main_v6 : S1x256.Idx → EReal) = shapeCast S1x256 (m ((c : Thread nD τ).loc main_arg4)) shapeCasts_S256_S1x256 := by
  dsimp only [Gen.V, Gen.hostOps0]; after_results; rfl
/-- A change of float format is the identity on extended reals. -/
theorem V_main_v2 (c : Dev nD) : (V m c main_v2 : S256x128.Idx → EReal) = (m ((c : Thread nD τ).loc main_arg5)) := by
  dsimp only [Gen.V, Gen.hostOps0]; after_results; rfl
theorem V_main_v7 (c : Dev nD) : (V m c main_v7 : S1x128.Idx → EReal) = shapeCast S1x128 (m ((c : Thread nD τ).loc main_arg6)) shapeCasts_S128_S1x128 := by
  dsimp only [Gen.V, Gen.hostOps0]; after_results; rfl
theorem V_main_v8 (c : Dev nD) : (V m c main_v8 : S1x32.Idx → EReal) = shapeCast S1x32 (m ((c : Thread nD τ).loc main_arg8)) shapeCasts_S32_S1x32 := by
  dsimp only [Gen.V, Gen.hostOps0]; after_results; rfl
/-- A change of float format is the identity on extended reals. -/
theorem V_main_v3 (c : Dev nD) : (V m c main_v3 : S160x64.Idx → EReal) = (m ((c : Thread nD τ).loc main_arg9)) := by
  dsimp only [Gen.V, Gen.hostOps0]; after_results; rfl
theorem V_main_v9 (c : Dev nD) : (V m c main_v9 : S1x64.Idx → EReal) = shapeCast S1x64 (m ((c : Thread nD τ).loc main_arg10)) shapeCasts_S64_S1x64 := by
  dsimp only [Gen.V, Gen.hostOps0]; after_results; rfl
/-- A change of float format is the identity on extended reals. -/
theorem V_main_v4 (c : Dev nD) : (V m c main_v4 : S64x32.Idx → EReal) = (m ((c : Thread nD τ).loc main_arg11)) := by
  dsimp only [Gen.V, Gen.hostOps0]; after_results; rfl
theorem V_main_v10 (c : Dev nD) : (V m c main_v10 : S1x32.Idx → EReal) = shapeCast S1x32 (m ((c : Thread nD τ).loc main_arg12)) shapeCasts_S32_S1x32 := by
  dsimp only [Gen.V, Gen.hostOps0]; after_results; rfl
theorem V_main_v11 (c : Dev nD) : (V m c main_v11 : S1x32.Idx → EReal) = shapeCast S1x32 (m ((c : Thread nD τ).loc main_arg13)) shapeCasts_S32x1_S1x32 := by
  dsimp only [Gen.V, Gen.hostOps0]; after_results; rfl
theorem V_main_v12 (c : Dev nD) : (V m c main_v12 : S1x1.Idx → EReal) = shapeCast S1x1 (m ((c : Thread nD τ).loc main_arg14)) shapeCasts_S1_S1x1 := by
  dsimp only [Gen.V, Gen.hostOps0]; after_results; rfl

/-! ## Each window's block, read at coordinates, from the launch arrays -/

/-- The input block at point `t` holds the rows `1024 · (the output's block index) + p` of the input array. -/
theorem blk0_apply (c : Dev nD) (t : Fin cfg0.N) (p : Fin 1024) (k : Fin 365) (r : Fin 65536)
    (hr : r.val = win0_15.index t (0 : Fin 1) * 1024 + p.val) :
    iblk m c 0 t (ix2 p k) = (m ((c : Thread nD τ).loc main_arg0)) (ix2 r k) := by
  obtain ⟨e0, e1, _⟩ := idx0 t
  show V m c main_arg0 (((cfg0.win 0).blk t).view.emb (ix2 p k)) = _
  rw [V_main_arg0]
  refine congrArg _ (funext fun ax => Fin.ext ?_)
  match ax with
  | ⟨0, _⟩ => show win0_0.index t (0 : Fin 2) * 1024 + 1 * p.val = r.val; omega
  | ⟨1, _⟩ => show win0_0.index t (1 : Fin 2) * 365 + 1 * k.val = k.val; omega

theorem blk1_apply (c : Dev nD) (t : Fin cfg0.N) (a : Fin 365) (b : Fin 512) :
    iblk m c 1 t (ix2 a b) = (m ((c : Thread nD τ).loc main_arg1)) (ix2 a b) := by
  obtain ⟨e0, e1⟩ := idx1 t
  show V m c main_v0 (((cfg0.win 1).blk t).view.emb (ix2 a b)) = _
  have hi : ((cfg0.win 1).blk t).view.emb (ix2 a b) = ix2 a b := by
    funext ax; apply Fin.ext
    match ax with
    | ⟨0, _⟩ => show win0_1.index t (0 : Fin 2) * 365 + 1 * a.val = a.val; omega
    | ⟨1, _⟩ => show win0_1.index t (1 : Fin 2) * 512 + 1 * b.val = b.val; omega
  rw [hi]
  exact congrFun (V_main_v0 m c) (ix2 a b)

theorem blk2_apply (c : Dev nD) (t : Fin cfg0.N) (a : Fin 1) (b : Fin 512) :
    iblk m c 2 t (ix2 a b) = (m ((c : Thread nD τ).loc main_arg2)) (ix1 b) := by
  obtain ⟨e0, e1⟩ := idx2 t
  show V m c main_v5 (((cfg0.win 2).blk t).view.emb (ix2 a b)) = _
  have hi : ((cfg0.win 2).blk t).view.emb (ix2 a b) = ix2 a b := by
    funext ax; apply Fin.ext
    match ax with
    | ⟨0, _⟩ => show win0_2.index t (0 : Fin 2) * 1 + 1 * a.val = a.val; omega
    | ⟨1, _⟩ => show win0_2.index t (1 : Fin 2) * 512 + 1 * b.val = b.val; omega
  rw [hi]
  exact (congrFun (V_main_v5 m c) (ix2 a b)).trans (shapeCast_a_1a_apply _ _ a b)

theorem blk3_apply (c : Dev nD) (t : Fin cfg0.N) (a : Fin 512) (b : Fin 256) :
    iblk m c 3 t (ix2 a b) = (m ((c : Thread nD τ).loc main_arg3)) (ix2 a b) := by
  obtain ⟨e0, e1⟩ := idx3 t
  show V m c main_v1 (((cfg0.win 3).blk t).view.emb (ix2 a b)) = _
  have hi : ((cfg0.win 3).blk t).view.emb (ix2 a b) = ix2 a b := by
    funext ax; apply Fin.ext
    match ax with
    | ⟨0, _⟩ => show win0_3.index t (0 : Fin 2) * 512 + 1 * a.val = a.val; omega
    | ⟨1, _⟩ => show win0_3.index t (1 : Fin 2) * 256 + 1 * b.val = b.val; omega
  rw [hi]
  exact congrFun (V_main_v1 m c) (ix2 a b)

theorem blk4_apply (c : Dev nD) (t : Fin cfg0.N) (a : Fin 1) (b : Fin 256) :
    iblk m c 4 t (ix2 a b) = (m ((c : Thread nD τ).loc main_arg4)) (ix1 b) := by
  obtain ⟨e0, e1⟩ := idx4 t
  show V m c main_v6 (((cfg0.win 4).blk t).view.emb (ix2 a b)) = _
  have hi : ((cfg0.win 4).blk t).view.emb (ix2 a b) = ix2 a b := by
    funext ax; apply Fin.ext
    match ax with
    | ⟨0, _⟩ => show win0_4.index t (0 : Fin 2) * 1 + 1 * a.val = a.val; omega
    | ⟨1, _⟩ => show win0_4.index t (1 : Fin 2) * 256 + 1 * b.val = b.val; omega
  rw [hi]
  exact (congrFun (V_main_v6 m c) (ix2 a b)).trans (shapeCast_a_1a_apply _ _ a b)

theorem blk5_apply (c : Dev nD) (t : Fin cfg0.N) (a : Fin 256) (b : Fin 128) :
    iblk m c 5 t (ix2 a b) = (m ((c : Thread nD τ).loc main_arg5)) (ix2 a b) := by
  obtain ⟨e0, e1⟩ := idx5 t
  show V m c main_v2 (((cfg0.win 5).blk t).view.emb (ix2 a b)) = _
  have hi : ((cfg0.win 5).blk t).view.emb (ix2 a b) = ix2 a b := by
    funext ax; apply Fin.ext
    match ax with
    | ⟨0, _⟩ => show win0_5.index t (0 : Fin 2) * 256 + 1 * a.val = a.val; omega
    | ⟨1, _⟩ => show win0_5.index t (1 : Fin 2) * 128 + 1 * b.val = b.val; omega
  rw [hi]
  exact congrFun (V_main_v2 m c) (ix2 a b)

theorem blk6_apply (c : Dev nD) (t : Fin cfg0.N) (a : Fin 1) (b : Fin 128) :
    iblk m c 6 t (ix2 a b) = (m ((c : Thread nD τ).loc main_arg6)) (ix1 b) := by
  obtain ⟨e0, e1⟩ := idx6 t
  show V m c main_v7 (((cfg0.win 6).blk t).view.emb (ix2 a b)) = _
  have hi : ((cfg0.win 6).blk t).view.emb (ix2 a b) = ix2 a b := by
    funext ax; apply Fin.ext
    match ax with
    | ⟨0, _⟩ => show win0_6.index t (0 : Fin 2) * 1 + 1 * a.val = a.val; omega
    | ⟨1, _⟩ => show win0_6.index t (1 : Fin 2) * 128 + 1 * b.val = b.val; omega
  rw [hi]
  exact (congrFun (V_main_v7 m c) (ix2 a b)).trans (shapeCast_a_1a_apply _ _ a b)

theorem blk7_apply (c : Dev nD) (t : Fin cfg0.N) (a : Fin 6) (b : Fin 32) :
    iblk m c 7 t (ix2 a b) = (m ((c : Thread nD τ).loc main_arg7)) (ix2 a b) := by
  obtain ⟨e0, e1⟩ := idx7 t
  show V m c main_arg7 (((cfg0.win 7).blk t).view.emb (ix2 a b)) = _
  have hi : ((cfg0.win 7).blk t).view.emb (ix2 a b) = ix2 a b := by
    funext ax; apply Fin.ext
    match ax with
    | ⟨0, _⟩ => show win0_7.index t (0 : Fin 2) * 6 + 1 * a.val = a.val; omega
    | ⟨1, _⟩ => show win0_7.index t (1 : Fin 2) * 32 + 1 * b.val = b.val; omega
  rw [hi]
  rw [V_main_arg7]

theorem blk8_apply (c : Dev nD) (t : Fin cfg0.N) (a : Fin 1) (b : Fin 32) :
    iblk m c 8 t (ix2 a b) = (m ((c : Thread nD τ).loc main_arg8)) (ix1 b) := by
  obtain ⟨e0, e1⟩ := idx8 t
  show V m c main_v8 (((cfg0.win 8).blk t).view.emb (ix2 a b)) = _
  have hi : ((cfg0.win 8).blk t).view.emb (ix2 a b) = ix2 a b := by
    funext ax; apply Fin.ext
    match ax with
    | ⟨0, _⟩ => show win0_8.index t (0 : Fin 2) * 1 + 1 * a.val = a.val; omega
    | ⟨1, _⟩ => show win0_8.index t (1 : Fin 2) * 32 + 1 * b.val = b.val; omega
  rw [hi]
  exact (congrFun (V_main_v8 m c) (ix2 a b)).trans (shapeCast_a_1a_apply _ _ a b)

theorem blk9_apply (c : Dev nD) (t : Fin cfg0.N) (a : Fin 160) (b : Fin 64) :
    iblk m c 9 t (ix2 a b) = (m ((c : Thread nD τ).loc main_arg9)) (ix2 a b) := by
  obtain ⟨e0, e1⟩ := idx9 t
  show V m c main_v3 (((cfg0.win 9).blk t).view.emb (ix2 a b)) = _
  have hi : ((cfg0.win 9).blk t).view.emb (ix2 a b) = ix2 a b := by
    funext ax; apply Fin.ext
    match ax with
    | ⟨0, _⟩ => show win0_9.index t (0 : Fin 2) * 160 + 1 * a.val = a.val; omega
    | ⟨1, _⟩ => show win0_9.index t (1 : Fin 2) * 64 + 1 * b.val = b.val; omega
  rw [hi]
  exact congrFun (V_main_v3 m c) (ix2 a b)

theorem blk10_apply (c : Dev nD) (t : Fin cfg0.N) (a : Fin 1) (b : Fin 64) :
    iblk m c 10 t (ix2 a b) = (m ((c : Thread nD τ).loc main_arg10)) (ix1 b) := by
  obtain ⟨e0, e1⟩ := idx10 t
  show V m c main_v9 (((cfg0.win 10).blk t).view.emb (ix2 a b)) = _
  have hi : ((cfg0.win 10).blk t).view.emb (ix2 a b) = ix2 a b := by
    funext ax; apply Fin.ext
    match ax with
    | ⟨0, _⟩ => show win0_10.index t (0 : Fin 2) * 1 + 1 * a.val = a.val; omega
    | ⟨1, _⟩ => show win0_10.index t (1 : Fin 2) * 64 + 1 * b.val = b.val; omega
  rw [hi]
  exact (congrFun (V_main_v9 m c) (ix2 a b)).trans (shapeCast_a_1a_apply _ _ a b)

theorem blk11_apply (c : Dev nD) (t : Fin cfg0.N) (a : Fin 64) (b : Fin 32) :
    iblk m c 11 t (ix2 a b) = (m ((c : Thread nD τ).loc main_arg11)) (ix2 a b) := by
  obtain ⟨e0, e1⟩ := idx11 t
  show V m c main_v4 (((cfg0.win 11).blk t).view.emb (ix2 a b)) = _
  have hi : ((cfg0.win 11).blk t).view.emb (ix2 a b) = ix2 a b := by
    funext ax; apply Fin.ext
    match ax with
    | ⟨0, _⟩ => show win0_11.index t (0 : Fin 2) * 64 + 1 * a.val = a.val; omega
    | ⟨1, _⟩ => show win0_11.index t (1 : Fin 2) * 32 + 1 * b.val = b.val; omega
  rw [hi]
  exact congrFun (V_main_v4 m c) (ix2 a b)

theorem blk12_apply (c : Dev nD) (t : Fin cfg0.N) (a : Fin 1) (b : Fin 32) :
    iblk m c 12 t (ix2 a b) = (m ((c : Thread nD τ).loc main_arg12)) (ix1 b) := by
  obtain ⟨e0, e1⟩ := idx12 t
  show V m c main_v10 (((cfg0.win 12).blk t).view.emb (ix2 a b)) = _
  have hi : ((cfg0.win 12).blk t).view.emb (ix2 a b) = ix2 a b := by
    funext ax; apply Fin.ext
    match ax with
    | ⟨0, _⟩ => show win0_12.index t (0 : Fin 2) * 1 + 1 * a.val = a.val; omega
    | ⟨1, _⟩ => show win0_12.index t (1 : Fin 2) * 32 + 1 * b.val = b.val; omega
  rw [hi]
  exact (congrFun (V_main_v10 m c) (ix2 a b)).trans (shapeCast_a_1a_apply _ _ a b)

theorem blk13_apply (c : Dev nD) (t : Fin cfg0.N) (a : Fin 1) (b : Fin 32) :
    iblk m c 13 t (ix2 a b) = (m ((c : Thread nD τ).loc main_arg13)) (ix2 b (0 : Fin 1)) := by
  obtain ⟨e0, e1⟩ := idx13 t
  show V m c main_v11 (((cfg0.win 13).blk t).view.emb (ix2 a b)) = _
  have hi : ((cfg0.win 13).blk t).view.emb (ix2 a b) = ix2 a b := by
    funext ax; apply Fin.ext
    match ax with
    | ⟨0, _⟩ => show win0_13.index t (0 : Fin 2) * 1 + 1 * a.val = a.val; omega
    | ⟨1, _⟩ => show win0_13.index t (1 : Fin 2) * 32 + 1 * b.val = b.val; omega
  rw [hi]
  refine (congrFun (V_main_v11 m c) (ix2 a b)).trans ?_
  refine shapeCast_apply _ _ (ix2 a b) (ix2 b (0 : Fin 1)) ?_
  have ha : a.val = 0 := by omega
  rw [Shape.rowMajor_val_two, Shape.rowMajor_val_two]
  show b.val * 1 + 0 = a.val * 32 + b.val
  omega

theorem blk14_apply (c : Dev nD) (t : Fin cfg0.N) (a : Fin 1) (b : Fin 1) :
    iblk m c 14 t (ix2 a b) = (m ((c : Thread nD τ).loc main_arg14)) (ix1 b) := by
  obtain ⟨e0, e1⟩ := idx14 t
  show V m c main_v12 (((cfg0.win 14).blk t).view.emb (ix2 a b)) = _
  have hi : ((cfg0.win 14).blk t).view.emb (ix2 a b) = ix2 a b := by
    funext ax; apply Fin.ext
    match ax with
    | ⟨0, _⟩ => show win0_14.index t (0 : Fin 2) * 1 + 1 * a.val = a.val; omega
    | ⟨1, _⟩ => show win0_14.index t (1 : Fin 2) * 1 + 1 * b.val = b.val; omega
  rw [hi]
  exact (congrFun (V_main_v12 m c) (ix2 a b)).trans (shapeCast_a_1a_apply _ _ a b)

/-- The parameters read off a point's blocks are the parameters read off the launch arrays. -/
theorem blockParams_eq (c : Dev nD) (t : Fin cfg0.N) :
    blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      = paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine Params.ext ?_ ?_ ?_ ?_ ?_ ?_ ?_ ?_ ?_ ?_ ?_ ?_ ?_ ?_
  · exact funext fun a => funext fun b => blk1_apply m c t a b
  · exact funext fun b => blk2_apply m c t 0 b
  · exact funext fun a => funext fun b => blk3_apply m c t a b
  · exact funext fun b => blk4_apply m c t 0 b
  · exact funext fun a => funext fun b => blk5_apply m c t a b
  · exact funext fun b => blk6_apply m c t 0 b
  · exact funext fun a => funext fun b => blk7_apply m c t a b
  · exact funext fun b => blk8_apply m c t 0 b
  · exact funext fun a => funext fun b => blk9_apply m c t a b
  · exact funext fun b => blk10_apply m c t 0 b
  · exact funext fun a => funext fun b => blk11_apply m c t a b
  · exact funext fun b => blk12_apply m c t 0 b
  · exact funext fun b => blk13_apply m c t 0 b
  · dsimp only [blockParams, paramsOf]
    exact blk14_apply m c t (0 : Fin 1) (0 : Fin 1)

/-! ## What a point writes back, the cover, the array -/

theorem hz1 : (![0] : Fin 1 → Nat) = fun _ => 0 := funext fun a => by fin_cases a; rfl
theorem hz2 : (![0, 0] : Fin 2 → Nat) = fun _ => 0 := funext fun a => by fin_cases a <;> rfl

/-- The result array: the network's result as a function of the launch arrays. -/
def result (c : Dev nD) : S65536.Idx → EReal :=
  netOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- WHAT POINT `t` WRITES BACK is block `t` of the result function. -/
theorem flushed_eq (c : Dev nD) (t : Fin cfg0.N) :
    (dats m 0 c).flushed 15 t = ((cfg0.win 15).blk t).view.read (Elt Ideal) (result m c) := by
  rw [flushed15]
  unfold out0_15
  rw [View.canon_unit_zero hz1]
  simp only [View.ld_unit_zero (S := S1024x365) hz2, View.ld_unit_zero (S := S365x512) hz2, View.ld_unit_zero (S := S1x512) hz2, View.ld_unit_zero (S := S512x256) hz2, View.ld_unit_zero (S := S1x256) hz2, View.ld_unit_zero (S := S256x128) hz2, View.ld_unit_zero (S := S1x128) hz2, View.ld_unit_zero (S := S6x32) hz2, View.ld_unit_zero (S := S1x32) hz2, View.ld_unit_zero (S := S160x64) hz2, View.ld_unit_zero (S := S1x64) hz2, View.ld_unit_zero (S := S64x32) hz2, View.ld_unit_zero (S := S1x1) hz2]
  funext y
  refine (point_eq' (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y).trans ?_
  rw [blockParams_eq m c t]
  show out _ _ = out _ (fun k => (m ((c : Thread nD τ).loc main_arg0)) (ix2 (⟨((((cfg0.win 15).blk t).view.emb y) 0).val, ((((cfg0.win 15).blk t).view.emb y) 0).isLt⟩ : Fin 65536) k))
  refine congrArg (out _) (funext fun k => ?_)
  refine blk0_apply m c t _ k _ ?_
  show win0_15.index t (0 : Fin 1) * 1024 + 1 * (y 0).val = win0_15.index t (0 : Fin 1) * 1024 + (y 0).val
  omega

/-- An index of the result array is in point `t`'s block iff it lies in that block's range of rows. -/
theorem mem_blk (t : Fin cfg0.N) (i : S65536.Idx) :
    i ∈ ((cfg0.win 15).blk t).view.set ↔ ∀ a : Fin 1, win0_15.index t a * S1024.size a ≤ (i a).val ∧ (i a).val < win0_15.index t a * S1024.size a + S1024.size a := by
  show i ∈ ((View.whole main_v13).slice (win0_15.rect t)).set ↔ _
  rw [View.set_slice_whole, Rect.mem_set_unit]
  exact Iff.rfl

/-- Every index of the result array is in some point's block: row `r` is in block `r / 1024`. -/
theorem cover (i : S65536.Idx) : ∃ t : Fin cfg0.N, (cfg0.win 15).flush t = true ∧ i ∈ ((cfg0.win 15).blk t).view.set := by
  have hi0 : (i 0).val < 65536 := (i 0).isLt
  obtain ⟨t, ht⟩ := idx_onto ⟨(i 0).val / 1024, by omega⟩
  have q0 : win0_15.index t (0 : Fin 1) = (i 0).val / 1024 := congrFun ht 0
  refine ⟨t, flush0_15 t, ?_⟩
  rw [mem_blk]
  intro a
  match a with
  | ⟨0, _⟩ => show win0_15.index t (0 : Fin 1) * 1024 ≤ (i 0).val ∧ (i 0).val < win0_15.index t (0 : Fin 1) * 1024 + 1024; omega

/-- THE ARRAY after the run is the result function. -/
theorem final (c : Dev nD) : (dats m 0 c).arrAt 15 cfg0.N = result m c :=
  (dats m 0 c).arrAt_eq_of_cover 15 (result m c) (fun t _ => flushed_eq m c t) (cover)

/-- The kernel's run: the result array ends at the network's result of the launch arrays, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (run_blocks m ρ)

end Cert.KernelIdeal.RowValue

end
-- ==== Proof.lean ====
/-
  A fused multilayer perceptron with row statistics, against its plain reference.

  For every row of a `65536 × 365` input both programs compute one number: three dense layers with positive part
  (365 → 512 → 256 → 128), beside them the row's mean, standard deviation, least and greatest entry and two
  standardized moments projected to 32 numbers, the two joined and passed through two more dense layers
  (160 → 64 → 32), a last weighted sum, and the logistic function. The kernel does this for 1024 rows per grid point,
  with every matrix product accumulated into zero, the projection of the six statistics written as six products
  added one after the other, the last layer as a product and a sum along the row, and the logistic function as one
  operation; the reference does it for all rows at once with `dot_general`s, the six statistics stacked as columns,
  and the logistic function spelled `1 / (1 + exp (-z))`. Read at the extended reals these are one function of the
  fifteen argument arrays (Proof/NetArrays.lean `netOf`, over the row-level specification Proof/RowNet.lean):

  * the reference's result array is that function (Proof/RefDense.lean, RefStats.lean, RefHead.lean, over the
    reference's operations read at an index);
  * what a grid point of the kernel writes back is the block of that function for its 1024 rows, and the 64 blocks
    cover the result (Proof/KerStats.lean, KerDense.lean, KerHead.lean for a row of a block; Proof/KerBlocks.lean for
    the blocks and the array).

  No step needs the inputs to be finite: the only laws used between the two spellings are that addition and
  multiplication of extended reals are commutative and associative, that a sum started from zero is the sum, and that
  the f32 word of one denotes one. The three frames are the generated frame proofs of the two kernel programs and the
  reference's run with its result dropped; the idealization rewrote nothing, so `preserves` is trivial.
-/
import proofs.«139536_j75840532512772_2_alg».proof.Defs
import proofs.«139536_j75840532512772_2_alg».proof.Proof.Gen.Kernel
import proofs.«139536_j75840532512772_2_alg».proof.Proof.Gen.Kernel.Skeleton
import proofs.«139536_j75840532512772_2_alg».proof.Proof.Gen.Kernel.Launch
import proofs.«139536_j75840532512772_2_alg».proof.Proof.Gen.Kernel.Points
import proofs.«139536_j75840532512772_2_alg».proof.Proof.Gen.Kernel.Frame
import proofs.«139536_j75840532512772_2_alg».proof.Proof.Gen.KernelIdeal
import proofs.«139536_j75840532512772_2_alg».proof.Proof.Gen.KernelIdeal.Skeleton
import proofs.«139536_j75840532512772_2_alg».proof.Proof.Gen.KernelIdeal.Launch
import proofs.«139536_j75840532512772_2_alg».proof.Proof.Gen.KernelIdeal.Points
import proofs.«139536_j75840532512772_2_alg».proof.Proof.Gen.KernelIdeal.Frame
import proofs.«139536_j75840532512772_2_alg».proof.Proof.Gen.ReferenceIdeal
import proofs.«139536_j75840532512772_2_alg».proof.Proof.Gen.Pre_finite_inputs
import proofs.«139536_j75840532512772_2_alg».proof.Proof.RefRunP
import proofs.«139536_j75840532512772_2_alg».proof.Proof.RefRunQ
import proofs.«139536_j75840532512772_2_alg».proof.Proof.RefReadP
import proofs.«139536_j75840532512772_2_alg».proof.Proof.NetArrays
import proofs.«139536_j75840532512772_2_alg».proof.Proof.RefHead
import proofs.«139536_j75840532512772_2_alg».proof.Proof.KerBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network's result of those arguments. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, Cert.ReferenceIdeal.RowValue.result_eq]
  obtain ⟨h0, h1, h2, h3, h4, h5, h6, h7, h8, h9, h10, h11, h12, h13, h14⟩ := hagree c
  rw [h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
